-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S64x16 .f32) (main_arg5 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x16 .f32 := Host.absf main_arg4
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x64 .f32) (main_arg3 : FVec F S64 .f32) (main_arg4 : FVec F S64x16 .f32) (main_arg5 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S1x64 : Shape := ⟨2, ![1, 64]⟩
abbrev S1x16 : Shape := ⟨2, ![1, 16]⟩
abbrev S10000x16 : Shape := ⟨2, ![10000, 16]⟩
abbrev S400x10000 : Shape := ⟨2, ![400, 10000]⟩
abbrev S400x16 : Shape := ⟨2, ![400, 16]⟩
abbrev S10000x64 : Shape := ⟨2, ![10000, 64]⟩
abbrev S400x64 : Shape := ⟨2, ![400, 64]⟩
abbrev S400 : Shape := ⟨1, ![400]⟩
abbrev S400x1 : Shape := ⟨2, ![400, 1]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S1x64, .f32⟩
  | .hbm, ⟨7, _⟩ => ⟨S1x16, .f32⟩
  | .hbm, ⟨8, _⟩ => ⟨S10000x16, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x64, .f32⟩
  | .local _ .vmem, ⟨4, _⟩ => ⟨S1x64, .f32⟩
  | .local _ .vmem, ⟨5, _⟩ => ⟨S64x16, .f32⟩
  | .local _ .vmem, ⟨6, _⟩ => ⟨S1x16, .f32⟩
  | .local _ .vmem, ⟨7, _⟩ => ⟨S400x16, .f32⟩
  | .local _ .vmem, ⟨8, _⟩ => ⟨S400x16, .f32⟩
  | .local _ .vmem, ⟨9, _⟩ => ⟨S10000x64, .f32⟩
  | .local _ .vmem, ⟨10, _⟩ => ⟨S10000x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v22 : BitVec 32 := Scalar.muli arg1 c400_i32
  let v23 : Index := Scalar.indexCast v22
  let c0_14 : Index := 0#32
  ![v23.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c24_i32 : BitVec 32 := 24#32
  let v1 : BitVec 32 := Scalar.subi c24_i32 v0
  let v2 : BitVec 32 := Scalar.muli arg0 v1
  let v3 : BitVec 32 := Scalar.addi arg1 v2
  let c0_i32 : BitVec 32 := 0#32
  let c0_i32_0 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c24_i32 : BitVec 32 := 24#32
  let v1 : BitVec 32 := Scalar.subi c24_i32 v0
  let c0_i32 : BitVec 32 := 0#32
  let c0_i32_0 : BitVec 32 := 0#32
  ![v1.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S400x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S64_S1x64 : S64.ShapeCasts S1x64
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S400x10000_S400x10000_0_0 : ∀ a, (![0, 0] : Fin 2 → Nat) a + S400x10000.size a ≤ S400x10000.size a
  h_S400x10000 : 0 < S400x10000.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S64x16_S64x16_0_0 : ∀ a, (![0, 0] : Fin 2 → Nat) a + S64x16.size a ≤ S64x16.size a
  h_S64x16 : 0 < S64x16.numel
  h_S400x16 : 0 < S400x16.numel
  shapeCasts_S400x16_S400x16 : S400x16.ShapeCasts S400x16
  inb_S10000x16_S10000x16_0_0 : ∀ a, (![0, 0] : Fin 2 → Nat) a + S10000x16.size a ≤ S10000x16.size a
  h_S10000x16 : 0 < S10000x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  reduces_S400x16_S400 : S400x16.Reduces [1] S400
  shapeCasts_S400_S400x1 : S400.ShapeCasts S400x1
  broadcasts_S400x1_S400x16 : S400x1.Broadcasts S400x16
  inb_S400x16_S400x16_0_0 : ∀ a, (![0, 0] : Fin 2 → Nat) a + S400x16.size a ≤ S400x16.size a
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S400x64_S64x16_S400x16_1_0_0_1_n_n_wf : DotDims.WF S400x64 S64x16 S400x16 [1] [0] [0] [1] [] []
  dot_S400x10000_S10000x16_S400x16_1_0_0_1_n_n_wf : DotDims.WF S400x10000 S10000x16 S400x16 [1] [0] [0] [1] [] []
  hrank0 : 0 < grid0.rank
  k0_off1_inb : ∀ i : grid0.Coords, ∀ (k0_h2 : k0_cond2 i = 1#1), ∀ a, (k0_off1 i) a + S400x16.size a ≤ S10000x16.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x16.size a ≤ S64x16.size a
  hwx0_4 : ∀ i : grid0.Coords, EltTy.bits .f32 = 32 ∨ (Rect.block (s := S64x16) S64x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x16.size a ≤ S10000x16.size a
  hwx0_6 : ∀ i : grid0.Coords, EltTy.bits .f32 = 32 ∨ (Rect.block (s := S10000x16) S400x16.size (cc0_transform_6 i) (hinb0_6 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x16_S400x16_1_0_0_1_n_n : DotDims S400x64 S64x16 S400x16 where
  lhsContracting := [1]
  rhsContracting := [0]
  lhsNonContracting := [0]
  rhsNonContracting := [1]
  lhsBatch := []
  rhsBatch := []
  wf := dot_S400x64_S64x16_S400x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S400x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S10000x64 : Shape := ⟨2, ![10000, 64]⟩
abbrev S1x64 : Shape := ⟨2, ![1, 64]⟩
abbrev S_ : Shape := ⟨0, ![]⟩
abbrev S10000x16 : Shape := ⟨2, ![10000, 16]⟩
abbrev S1x16 : Shape := ⟨2, ![1, 16]⟩
abbrev S10000 : Shape := ⟨1, ![10000]⟩
abbrev S10000x1 : Shape := ⟨2, ![10000, 1]⟩

abbrev nBuf : Space → Nat
  | .hbm => 34
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S10000x64, .f32⟩
  | .hbm, ⟨7, _⟩ => ⟨S10000x64, .f32⟩
  | .hbm, ⟨8, _⟩ => ⟨S1x64, .f32⟩
  | .hbm, ⟨9, _⟩ => ⟨S10000x64, .f32⟩
  | .hbm, ⟨10, _⟩ => ⟨S10000x64, .f32⟩
  | .hbm, ⟨11, _⟩ => ⟨S_, .f32⟩
  | .hbm, ⟨12, _⟩ => ⟨S10000x64, .f32⟩
  | .hbm, ⟨13, _⟩ => ⟨S10000x64, .f32⟩
  | .hbm, ⟨14, _⟩ => ⟨S10000x16, .f32⟩
  | .hbm, ⟨15, _⟩ => ⟨S10000x16, .f32⟩
  | .hbm, ⟨16, _⟩ => ⟨S1x16, .f32⟩
  | .hbm, ⟨17, _⟩ => ⟨S10000x16, .f32⟩
  | .hbm, ⟨18, _⟩ => ⟨S10000x16, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x16, .f32⟩
  | .hbm, ⟨26, _⟩ => ⟨S10000x16, .f32⟩
  | .hbm, ⟨27, _⟩ => ⟨S10000x16, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x16, .f32⟩
  | .hbm, ⟨32, _⟩ => ⟨S10000x16, .f32⟩
  | .hbm, ⟨33, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  reducesTo_S10000x16_S10000_d1 : S10000x16.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x16_S10000x16_1_0_0_1_n_n_wf : DotDims.WF S10000x64 S64x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.K.Points.lean ====
/-
  The grid of the fused kernel is two sweeps of 25 row blocks: points 0..24 (the first sweep) and 25..49 (the second).
  Here: the three branch conditions of the body in closed form over the point's number; where the output window is
  idle (the whole first sweep, during which its block is never written back) and where it is live (the second sweep);
  and the staging memrefs the body is called with at a point.
-/
import proofs.«100797_g85014582657441_cont_9to1_m_926_23_alg».proof.Proof.Gen.Kernel.Frame
import proofs.«100797_g85014582657441_cont_9to1_m_926_23_alg».proof.Proof.Gen.Kernel.Skeleton

set_option maxRecDepth 16384

noncomputable section

namespace Cert.Kernel.Sweeps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's three conditions -/

/-- The first conditional of the body: both grid coordinates are zero. -/
abbrev atStart (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem atStart_iff : ∀ t : Fin cfg0.N, atStart (grid0.coords t) ↔ t.val = 0 :=
  (by decide +kernel : ∀ t : Fin grid0.N, atStart (grid0.coords t) ↔ t.val = 0)

/-- The second conditional: the sweep coordinate is 0. -/
abbrev inFirstSweep (i : grid0.Coords) : Prop := k0_cond2 i = 1#1
/-- It holds at points 0..24. -/
theorem inFirstSweep_iff : ∀ t : Fin cfg0.N, inFirstSweep (grid0.coords t) ↔ t.val < 25 :=
  (by decide +kernel : ∀ t : Fin grid0.N, inFirstSweep (grid0.coords t) ↔ t.val < 25)

/-- The third conditional: the sweep coordinate is 1. -/
abbrev inSecondSweep (i : grid0.Coords) : Prop := k0_cond3 i = 1#1
/-- It holds at points 25..49. -/
theorem inSecondSweep_iff : ∀ t : Fin cfg0.N, inSecondSweep (grid0.coords t) ↔ 25 ≤ t.val :=
  (by decide +kernel : ∀ t : Fin grid0.N, inSecondSweep (grid0.coords t) ↔ 25 ≤ t.val)

/-- Point `t` of the first sweep stores rows `400 t .. 400 t + 399` of the second scratch. -/
theorem rowOffset_firstSweep : ∀ t : Fin cfg0.N, t.val < 25 → k0_off1 (grid0.coords t) = ![400 * t.val, 0] :=
  (by decide +kernel : ∀ t : Fin grid0.N, t.val < 25 → k0_off1 (grid0.coords t) = ![400 * t.val, 0])

/-! ## Where the windows are idle, and where the output is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The output window is idle throughout the first sweep, -/
theorem idle6_firstSweep : ∀ t : Fin cfg0.N, t.val < 25 → cfg0.idle 6 (grid0.coords t) = true := by decide +kernel
/-- its block is not written back there, -/
theorem noFlush6_firstSweep : ∀ t : Fin cfg0.N, t.val < 25 → (cfg0.win 6).flush t = false := by decide +kernel
/-- and it is live throughout the second, -/
theorem live6_secondSweep : ∀ t : Fin cfg0.N, 25 ≤ t.val → cfg0.idle 6 (grid0.coords t) = false := by decide +kernel
/-- where every point writes its block back. -/
theorem flush6_secondSweep : ∀ t : Fin cfg0.N, 25 ≤ t.val → (cfg0.win 6).flush t = true := by decide +kernel

/-! ## The memrefs the body is called with -/

abbrev stg0 (t : Fin cfg0.N) : Memref sig .tc .vmem S10000x128 .f32 := win0_0.stage (cfg0.slots t 0)
abbrev stg0_whole (t : Fin cfg0.N) : (stg0 t).IsWhole := hstage0_0 ((cfg0.slots t 0).cast nbuf0_0)
abbrev stg1 (t : Fin cfg0.N) : Memref sig .tc .vmem S400x10000 .f32 := win0_1.stage (cfg0.slots t 1)
abbrev stg1_whole (t : Fin cfg0.N) : (stg1 t).IsWhole := hstage0_1 ((cfg0.slots t 1).cast nbuf0_1)
abbrev stg2 (t : Fin cfg0.N) : Memref sig .tc .vmem S128x64 .f32 := win0_2.stage (cfg0.slots t 2)
abbrev stg2_whole (t : Fin cfg0.N) : (stg2 t).IsWhole := hstage0_2 ((cfg0.slots t 2).cast nbuf0_2)
abbrev stg3 (t : Fin cfg0.N) : Memref sig .tc .vmem S1x64 .f32 := win0_3.stage (cfg0.slots t 3)
abbrev stg3_whole (t : Fin cfg0.N) : (stg3 t).IsWhole := hstage0_3 ((cfg0.slots t 3).cast nbuf0_3)
abbrev stg4 (t : Fin cfg0.N) : Memref sig .tc .vmem S64x16 .f32 := win0_4.stage (cfg0.slots t 4)
abbrev stg4_whole (t : Fin cfg0.N) : (stg4 t).IsWhole := hstage0_4 ((cfg0.slots t 4).cast nbuf0_4)
abbrev stg5 (t : Fin cfg0.N) : Memref sig .tc .vmem S1x16 .f32 := win0_5.stage (cfg0.slots t 5)
abbrev stg5_whole (t : Fin cfg0.N) : (stg5 t).IsWhole := hstage0_5 ((cfg0.slots t 5).cast nbuf0_5)
abbrev stg6 (t : Fin cfg0.N) : Memref sig .tc .vmem S400x16 .f32 := win0_6.stage (cfg0.slots t 6)
abbrev stg6_whole (t : Fin cfg0.N) : (stg6 t).IsWhole := hstage0_6 ((cfg0.slots t 6).cast nbuf0_6)
/-- The two scratch operands: the dense factor `x · W1` (10000 × 64) and the second layer's factor (10000 × 16). -/
abbrev scrA : Memref sig .tc .vmem S10000x64 .f32 := Memref.whole cc0_scratch0
abbrev scrB : Memref sig .tc .vmem S10000x16 .f32 := Memref.whole cc0_scratch1

/-- What the launch hands the region besides the windows: the two scratch buffers at some contents and the generator's register. -/
theorem classInv_eq (c : Dev nD) :
    (Pipeline.ΦA spec0 c : sProp 𝕄)
      = iprop(iprop((∃ d, owns (c : Thread nD τ) scrA fullShare d) ∗ (∃ d, owns (c : Thread nD τ) scrB fullShare d)) ∗ (∃ r, prngReg c r)) := by
  unfold Pipeline.ΦA; rw [scopedRest0_eq]; simp only [scrA, scrB, owns_whole]; try rfl

end Cert.Kernel.Sweeps

end
-- ==== Proof.K.FirstPoint.lean ====
/-
  The body at the first point of the grid: it forms the dense factor `x · W1` in the first scratch, then (being a point
  of the first sweep) the first 400 rows of the second layer's factor in the second scratch. The output's staging buffer
  is not touched.
-/
import proofs.«100797_g85014582657441_cont_9to1_m_926_23_alg».proof.Proof.K.Points

set_option maxRecDepth 16384

noncomputable section

namespace Cert.Kernel.Sweeps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's run at the first point, on whole memrefs: the inputs at their contents, the output's buffer at `xi6`, the
    first scratch at anything, the second at `xsB`. It ends with the inputs and the output's buffer as they were, the first
    scratch with the pieces `LA` written, the second with the pieces `LB` written over `xsB`. -/
noncomputable def firstPointRun (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x64 .f32) (harg9 : arg9.IsWhole) (arg10 : Memref sig .tc .vmem S10000x16 .f32) (harg10 : arg10.IsWhole) (hc0 : atStart i) (hc1 : inFirstSweep i) (hc2 : ¬inSecondSweep i)
    (x0 : Vec F S10000x128 .f32) (x1 : Vec F S400x10000 .f32) (x2 : Vec F S128x64 .f32) (x3 : Vec F S1x64 .f32) (x4 : Vec F S64x16 .f32) (x5 : Vec F S1x16 .f32) :
    Σ' (LA : List (View.Piece (Elt F) S10000x64 .f32)), { LB : List (View.Piece (Elt F) S10000x16 .f32) //
      ∀ (xi6 : Vec F S400x16 .f32) (xsB : Vec F S10000x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ owns (c : Thread nD τ) arg10 fullShare xsB
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LA) ∗ (arg10.view.loc (c : Thread nD τ) ↦[arg10.view.set]{fullShare} arg10.view.writes (Elt F) (harg10.unread xsB) LB)) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, ?_, fun xi6 xsB E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dA, %fA, -, HA⟩, ⟨%fB, %hfB, HB⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfB
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HA]; · iexists _; iexact HA
    iexact HB

end Cert.Kernel.Sweeps

end
-- ==== Proof.K.FirstSweep.lean ====
/-
  The body at a later point of the first sweep: from the dense factor in the first scratch and the point's 400 rows of
  the normalised adjacency it forms the point's 400 rows of the second layer's factor and stores them in the second
  scratch. The first scratch and the output's staging buffer are not touched.
-/
import proofs.«100797_g85014582657441_cont_9to1_m_926_23_alg».proof.Proof.K.FirstPoint

set_option maxRecDepth 16384

noncomputable section

namespace Cert.Kernel.Sweeps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's run at a point of the first sweep other than the first point: the first scratch at `xsA` in and out, the
    second at `xsB` and then with the pieces `LB` written over it, the output's buffer at `xi6` in and out. -/
noncomputable def firstSweepRun (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x64 .f32) (harg9 : arg9.IsWhole) (arg10 : Memref sig .tc .vmem S10000x16 .f32) (harg10 : arg10.IsWhole) (hc0 : ¬atStart i) (hc1 : inFirstSweep i) (hc2 : ¬inSecondSweep i)
    (x0 : Vec F S10000x128 .f32) (x1 : Vec F S400x10000 .f32) (x2 : Vec F S128x64 .f32) (x3 : Vec F S1x64 .f32) (x4 : Vec F S64x16 .f32) (x5 : Vec F S1x16 .f32) (xsA : Vec F S10000x64 .f32) :
    { LB : List (View.Piece (Elt F) S10000x16 .f32) //
      ∀ (xi6 : Vec F S400x16 .f32) (xsB : Vec F S10000x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xsA ∗ owns (c : Thread nD τ) arg10 fullShare xsB
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xsA ∗ (arg10.view.loc (c : Thread nD τ) ↦[arg10.view.set]{fullShare} arg10.view.writes (Elt F) (harg10.unread xsB) LB)) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, fun xi6 xsB E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fA, %hfA, HA⟩, ⟨%fB, %hfB, HB⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfA; obtain rfl := harg10.eq_unread hfB
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HA]
    · iexists _; isplitr; · ipureintro; exact harg9.read_unread _
      iexact HA
    iexact HB

end Cert.Kernel.Sweeps

end
-- ==== Proof.K.SecondSweep.lean ====
/-
  The body at a point of the second sweep: from the point's 400 rows of the normalised adjacency and the whole second
  layer's factor in the second scratch it forms 400 rows of logits, and stores their row-wise log-softmax as the output
  block. Neither scratch is written.
-/
import proofs.«100797_g85014582657441_cont_9to1_m_926_23_alg».proof.Proof.K.FirstSweep

set_option maxRecDepth 16384

noncomputable section

namespace Cert.Kernel.Sweeps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's run at a point of the second sweep: both scratch buffers in and out at their contents, the output's
    staging buffer at anything and then with the pieces `L6` written. -/
noncomputable def secondSweepRun (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x64 .f32) (harg9 : arg9.IsWhole) (arg10 : Memref sig .tc .vmem S10000x16 .f32) (harg10 : arg10.IsWhole) (hc0 : ¬atStart i) (hc1 : ¬inFirstSweep i) (hc2 : inSecondSweep i)
    (x0 : Vec F S10000x128 .f32) (x1 : Vec F S400x10000 .f32) (x2 : Vec F S128x64 .f32) (x3 : Vec F S1x64 .f32) (x4 : Vec F S64x16 .f32) (x5 : Vec F S1x16 .f32) (xsB : Vec F S10000x16 .f32) :
    { L6 : List (View.Piece (Elt F) S400x16 .f32) //
      ∀ (xsA : Vec F S10000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xsA ∗ owns (c : Thread nD τ) arg10 fullShare xsB
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xsA ∗ owns (c : Thread nD τ) arg10 fullShare xsB) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, fun xsA E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fA, %hfA, HA⟩, ⟨%fB, %hfB, HB⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfA; obtain rfl := harg10.eq_unread hfB
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HA]
    · iexists _; isplitr; · ipureintro; exact harg9.read_unread _
      iexact HA
    iexists _; isplitr; · ipureintro; exact harg10.read_unread _
    iexact HB

end Cert.Kernel.Sweeps

end
-- ==== Proof.K.Pieces.lean ====
/-
  What the three runs leave, piece by piece, with every load of a whole buffer through its whole rectangle read as the
  buffer's contents: the first point writes `x · W1` over all of the first scratch and then its 400-row block of the
  second layer's factor; a later point of the first sweep writes its 400-row block; a point of the second sweep writes
  its whole output block.
-/
import proofs.«100797_g85014582657441_cont_9to1_m_926_23_alg».proof.Proof.K.SecondSweep
import Idealize.ShloMosaic.Lib.Pipeline.Value

set_option maxRecDepth 16384

noncomputable section

namespace Cert.Kernel.Sweeps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a rank-2 rectangle, as the function the library's whole-rectangle lemmas ask for. -/
theorem zeroOffsets : (![0, 0] : Fin 2 → ℕ) = fun _ => 0 := by
  funext a; fin_cases a <;> rfl

variable (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x64 .f32) (harg9 : arg9.IsWhole) (arg10 : Memref sig .tc .vmem S10000x16 .f32) (harg10 : arg10.IsWhole) (x0 : Vec F S10000x128 .f32) (x1 : Vec F S400x10000 .f32) (x2 : Vec F S128x64 .f32) (x3 : Vec F S1x64 .f32) (x4 : Vec F S64x16 .f32) (x5 : Vec F S1x16 .f32)

/-- A later point of the first sweep leaves ONE piece in the second scratch: rows `k0_off1 i` onward, 400 of them, at
    the block `k0_pay2` computes from the point's rows of the adjacency, the dense factor, the bias and `W2`. -/
theorem firstSweepRun_pieces (hc0 : ¬atStart i) (hc1 : inFirstSweep i) (hc2 : ¬inSecondSweep i) (xsA : Vec F S10000x64 .f32) :
    (firstSweepRun c i arg2 harg2 arg3 harg3 arg4 harg4 arg5 harg5 arg6 harg6 arg7 harg7 arg8 harg8 arg9 harg9 arg10 harg10 hc0 hc1 hc2 x0 x1 x2 x3 x4 x5 xsA).1
      = [⟨Rect.unit (s := S10000x16) (k0_off1 i) S400x16.size (k0_off1_inb i hc1), k0_pay2 x1 xsA x3 x4⟩] := by
  unfold firstSweepRun
  dsimp only
  simp only [View.readAt_eq_ld, harg3.read_unread, harg9.read_unread, harg5.read_unread, harg6.read_unread,
    View.ld_unit_zero (S := S400x10000) zeroOffsets, View.ld_unit_zero (S := S10000x64) zeroOffsets, View.ld_unit_zero (S := S1x64) zeroOffsets, View.ld_unit_zero (S := S64x16) zeroOffsets]

/-- A point of the second sweep leaves ONE piece in the output's staging buffer: the whole block, at what `k0_pay3`
    computes from the point's rows of the adjacency, the second layer's factor and its bias. -/
theorem secondSweepRun_pieces (hc0 : ¬atStart i) (hc1 : ¬inFirstSweep i) (hc2 : inSecondSweep i) (xsB : Vec F S10000x16 .f32) :
    (secondSweepRun c i arg2 harg2 arg3 harg3 arg4 harg4 arg5 harg5 arg6 harg6 arg7 harg7 arg8 harg8 arg9 harg9 arg10 harg10 hc0 hc1 hc2 x0 x1 x2 x3 x4 x5 xsB).1
      = [⟨Rect.unit (s := S400x16) ![0, 0] S400x16.size inb_S400x16_S400x16_0_0, k0_pay3 x1 xsB x5⟩] := by
  unfold secondSweepRun
  dsimp only
  simp only [View.readAt_eq_ld, harg3.read_unread, harg10.read_unread, harg7.read_unread,
    View.ld_unit_zero (S := S400x10000) zeroOffsets, View.ld_unit_zero (S := S10000x16) zeroOffsets, View.ld_unit_zero (S := S1x16) zeroOffsets]

/-- So whatever the output's staging buffer held, after such a point it reads `k0_pay3 x1 xsB x5`. -/
theorem secondSweepRun_reads (hc0 : ¬atStart i) (hc1 : ¬inFirstSweep i) (hc2 : inSecondSweep i) (xsB : Vec F S10000x16 .f32)
    (f : arg8.view.ty.Contents (Elt F)) :
    arg8.view.read (Elt F) (arg8.view.writes (Elt F) f (secondSweepRun c i arg2 harg2 arg3 harg3 arg4 harg4 arg5 harg5 arg6 harg6 arg7 harg7 arg8 harg8 arg9 harg9 arg10 harg10 hc0 hc1 hc2 x0 x1 x2 x3 x4 x5 xsB).1)
      = k0_pay3 x1 xsB x5 := by
  rw [secondSweepRun_pieces]
  rw [View.read_writes_eq_canon _ _ _ (fun y => ⟨_, List.mem_singleton_self _, View.mem_set_unit_zero zeroOffsets inb_S400x16_S400x16_0_0 y⟩)]
  exact View.canon_unit_zero zeroOffsets _ _

/-- The first point leaves in the first scratch, whatever it held, the dense factor `k0_pay1 x0 x2`, -/
theorem firstPointRun_readsA (hc0 : atStart i) (hc1 : inFirstSweep i) (hc2 : ¬inSecondSweep i)
    (f : arg9.view.ty.Contents (Elt F)) :
    arg9.view.read (Elt F) (arg9.view.writes (Elt F) f (firstPointRun c i arg2 harg2 arg3 harg3 arg4 harg4 arg5 harg5 arg6 harg6 arg7 harg7 arg8 harg8 arg9 harg9 arg10 harg10 hc0 hc1 hc2 x0 x1 x2 x3 x4 x5).1)
      = k0_pay1 x0 x2 := by
  unfold firstPointRun
  dsimp only
  sl_unfold_words
  simp only [View.readAt_eq_ld, harg2.read_unread, harg4.read_unread, View.ld_unit_zero (S := S10000x128) zeroOffsets, View.ld_unit_zero (S := S128x64) zeroOffsets]
  rw [View.read_writes_eq_canon _ _ _ (fun y => ⟨_, List.mem_singleton_self _, View.mem_set_unit_zero zeroOffsets inb_S10000x64_S10000x64_0_0 y⟩)]
  exact View.canon_unit_zero zeroOffsets _ _

/-- and in the second scratch ONE piece: its 400-row block, computed from that dense factor. -/
theorem firstPointRun_piecesB (hc0 : atStart i) (hc1 : inFirstSweep i) (hc2 : ¬inSecondSweep i) :
    (firstPointRun c i arg2 harg2 arg3 harg3 arg4 harg4 arg5 harg5 arg6 harg6 arg7 harg7 arg8 harg8 arg9 harg9 arg10 harg10 hc0 hc1 hc2 x0 x1 x2 x3 x4 x5).2.1
      = [⟨Rect.unit (s := S10000x16) (k0_off1 i) S400x16.size (k0_off1_inb i hc1), k0_pay2 x1 (k0_pay1 x0 x2) x3 x4⟩] := by
  unfold firstPointRun
  dsimp only
  sl_unfold_words
  simp only [View.readCov_unit_zero (S := S10000x64) arg9.view zeroOffsets, View.readAt_eq_ld, harg2.read_unread, harg4.read_unread, harg3.read_unread, harg5.read_unread, harg6.read_unread,
    View.ld_unit_zero (S := S10000x128) zeroOffsets, View.ld_unit_zero (S := S128x64) zeroOffsets, View.ld_unit_zero (S := S400x10000) zeroOffsets, View.ld_unit_zero (S := S1x64) zeroOffsets, View.ld_unit_zero (S := S64x16) zeroOffsets]

end Cert.Kernel.Sweeps

end
-- ==== Proof.K.Data.lean ====
/-
  What the two scratch buffers and the output's staging buffer hold, point by point.

  The first scratch holds `x · W1` from the first point on. The second scratch is filled 400 rows per point during the
  first sweep: after `n ≤ 25` points its rows `0 .. 400 n − 1` hold the second layer's factor `hidden · W2`, block by
  block, and the rows beyond hold whatever they held before the first point. After the 25 points of the first sweep
  nothing of those first contents is left, so the second sweep reads one array, the same whatever the scratch held.
-/
import proofs.«100797_g85014582657441_cont_9to1_m_926_23_alg».proof.Proof.K.Pieces
import Idealize.ShloMosaic.Lib.WritesUnit
import Idealize.ShloMosaic.Lib.ValueIdx

set_option maxRecDepth 16384

noncomputable section

namespace Cert.Kernel.Sweeps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- The grid has 50 points. -/
theorem points50 : cfg0.N = 50 := N_0

/-- Point 0. -/
abbrev firstPt : Fin cfg0.N := ⟨0, by rw [points50]; decide⟩

theorem scrA_whole : (scrA : Memref sig .tc .vmem S10000x64 .f32).IsWhole := Memref.isWhole_whole _
theorem scrB_whole : (scrB : Memref sig .tc .vmem S10000x16 .f32).IsWhole := Memref.isWhole_whole _

/-- The dense factor `x · W1`, as the body computes it from the (whole) blocks of `x` and `W1`. -/
def denseFactor (c : Dev nD) : Vec F S10000x64 .f32 := k0_pay1 (iblk m c 0 firstPt) (iblk m c 2 firstPt)

/-- The 400 rows of the second layer's factor that point `t` of the first sweep computes. -/
def factorBlock (c : Dev nD) (t : Fin cfg0.N) : Vec F S400x16 .f32 :=
  k0_pay2 (iblk m c 1 t) (denseFactor m c) (iblk m c 3 t) (iblk m c 4 t)

/-- The store of point `t` of the first sweep into the second scratch: its block at its 400 rows. -/
def factorPiece (c : Dev nD) (t : Fin cfg0.N) (ht : t.val < 25) : View.Piece (Elt F) S10000x16 .f32 :=
  ⟨Rect.unit (s := S10000x16) (k0_off1 (grid0.coords t)) S400x16.size (k0_off1_inb (grid0.coords t) ((inFirstSweep_iff t).mpr ht)), factorBlock m c t⟩

/-- What the second scratch holds after `n` points, if it held `d` before the first: each point of the first sweep
    writes its block over what the point before left; the second sweep writes nothing. -/
def factorAfter (c : Dev nD) (d : Vec F S10000x16 .f32) : (n : ℕ) → n ≤ cfg0.N → Vec F S10000x16 .f32
  | 0, _ => d
  | n + 1, hn =>
    if h : n < 25 then
      scrB.view.read (Elt F) (scrB.view.writes (Elt F) (scrB_whole.unread (factorAfter c d n (Nat.le_of_succ_le hn))) [factorPiece m c ⟨n, hn⟩ h])
    else factorAfter c d n (Nat.le_of_succ_le hn)

theorem factorAfter_succ_lt (c : Dev nD) (d : Vec F S10000x16 .f32) (n : ℕ) (hn : n + 1 ≤ cfg0.N) (h : n < 25) :
    factorAfter m c d (n + 1) hn
      = scrB.view.read (Elt F) (scrB.view.writes (Elt F) (scrB_whole.unread (factorAfter m c d n (Nat.le_of_succ_le hn))) [factorPiece m c ⟨n, hn⟩ h]) :=
  dif_pos h

theorem factorAfter_succ_ge (c : Dev nD) (d : Vec F S10000x16 .f32) (n : ℕ) (hn : n + 1 ≤ cfg0.N) (h : ¬n < 25) :
    factorAfter m c d (n + 1) hn = factorAfter m c d n (Nat.le_of_succ_le hn) :=
  dif_neg h

/-- Row `400 k + q` of the second scratch, once block `k` has been written (`k < n ≤ 25`), holds row `q` of block `k`:
    later points write other rows. -/
theorem factorAfter_row (c : Dev nD) (d : Vec F S10000x16 .f32) :
    ∀ (n : ℕ) (hn : n ≤ cfg0.N) (hn25 : n ≤ 25) (k : ℕ) (hk : k < n) (q : Fin 400) (j : Fin 16) (y : S10000x16.Idx)
      (hy0 : (y 0).val = 400 * k + q.val) (hy1 : (y 1).val = j.val),
      factorAfter m c d n hn y = factorBlock m c ⟨k, by have := points50; omega⟩ (ix2 q j)
  | 0, _, _, k, hk, _, _, _, _, _ => absurd hk (Nat.not_lt_zero k)
  | n + 1, hn, hn25, k, hk, q, j, y, hy0, hy1 => by
    have hlt : n < 25 := by omega
    rw [factorAfter_succ_lt m c d n hn hlt]
    have hoff : k0_off1 (grid0.coords (⟨n, hn⟩ : Fin cfg0.N)) = ![400 * n, 0] := rowOffset_firstSweep ⟨n, hn⟩ hlt
    by_cases hkn : k = n
    · subst hkn
      exact View.read_writes_cons_rows_of_mem (d := ![10000, 16]) scrB.view _ _ (factorBlock m c ⟨k, hn⟩) [] y (ix2 q j) hoff hy0 hy1
    · have hk' : k < n := by omega
      unfold factorPiece
      rw [View.read_writes_cons_rows_of_not_mem (d := ![10000, 16]) scrB.view _ _ _ [] y hoff rfl (Or.inl (by omega))]
      rw [View.writes_nil, scrB_whole.read_unread]
      exact factorAfter_row c d n (Nat.le_of_succ_le hn) (by omega) k hk' q j y hy0 hy1

/-- After the whole first sweep the second scratch does not depend on what it held before. -/
theorem factorAfter_25_indep (c : Dev nD) (d d' : Vec F S10000x16 .f32) (h : 25 ≤ cfg0.N) :
    factorAfter m c d 25 h = factorAfter m c d' 25 h := by
  funext y
  have hy := (y 0).isLt
  have hq : (y 0).val % 400 < 400 := Nat.mod_lt _ (by decide)
  have hk : (y 0).val / 400 < 25 := by
    have : (y 0).val < 10000 := hy
    omega
  have e0 : (y 0).val = 400 * ((y 0).val / 400) + (⟨(y 0).val % 400, hq⟩ : Fin 400).val := (Nat.div_add_mod _ _).symm
  rw [factorAfter_row m c d 25 h le_rfl _ hk ⟨(y 0).val % 400, hq⟩ (y 1) y e0 rfl,
    factorAfter_row m c d' 25 h le_rfl _ hk ⟨(y 0).val % 400, hq⟩ (y 1) y e0 rfl]

/-- During the second sweep the second scratch stays as the first sweep left it. -/
theorem factorAfter_of_ge (c : Dev nD) (d : Vec F S10000x16 .f32) :
    ∀ (n : ℕ) (hn : n ≤ cfg0.N) (h25 : 25 ≤ n), factorAfter m c d n hn = factorAfter m c d 25 (le_trans h25 hn)
  | 0, _, h25 => absurd h25 (by decide)
  | n + 1, hn, h25 => by
    by_cases hlt : n < 25
    · have : n = 24 := by omega
      subst this
      rfl
    · rw [factorAfter_succ_ge m c d n hn hlt]
      exact factorAfter_of_ge c d n (Nat.le_of_succ_le hn) (by omega)

/-- The whole second-layer factor, as the second sweep finds it in the second scratch. -/
def factorFull (c : Dev nD) : Vec F S10000x16 .f32 :=
  factorAfter m c (scrB.view.read (Elt F) scrB.view.junk) 25 (by rw [points50]; decide)

theorem factorAfter_eq_full (c : Dev nD) (d : Vec F S10000x16 .f32) (n : ℕ) (hn : n ≤ cfg0.N) (h25 : 25 ≤ n) :
    factorAfter m c d n hn = factorFull m c :=
  (factorAfter_of_ge m c d n hn h25).trans (factorAfter_25_indep m c d _ _)

/-- The output block point `t` of the second sweep computes. -/
def outBlock (c : Dev nD) (t : Fin cfg0.N) : Vec F S400x16 .f32 :=
  k0_pay3 (iblk m c 1 t) (factorFull m c) (iblk m c 5 t)

end Cert.Kernel.Sweeps

end
-- ==== Proof.K.Body.lean ====
/-
  The body obligation of the fused kernel and its run.

  The invariant between points: before the first point both scratch buffers hold anything; afterwards the first holds
  `x · W1` and the second what `n` points leave of it over SOME first contents (bound once, by an existential: no value
  the kernel reads depends on them, because the second sweep starts only when every row has been written). The output's
  staging buffer is handed back untouched during the first sweep, where its window is idle and not written back, and holds
  the point's block of log-softmax rows during the second.
-/
import proofs.«100797_g85014582657441_cont_9to1_m_926_23_alg».proof.Proof.K.Data

set_option maxRecDepth 16384

noncomputable section

namespace Cert.Kernel.Sweeps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant -/

/-- The region's invariant before point `n`. -/
def inv (c : Dev nD) : (n : ℕ) → n ≤ cfg0.N → sProp 𝕄
  | 0, _ => iprop(∃ d, iprop(iprop((∃ a, owns (c : Thread nD τ) scrA fullShare a) ∗ owns (c : Thread nD τ) scrB fullShare d) ∗ (∃ r, prngReg c r)))
  | n + 1, h => iprop(∃ d, iprop(iprop(owns (c : Thread nD τ) scrA fullShare (denseFactor m c) ∗ owns (c : Thread nD τ) scrB fullShare (factorAfter m c d (n + 1) h)) ∗ (∃ r, prngReg c r)))

theorem inv_zero (c : Dev nD) (n : ℕ) (h : n ≤ cfg0.N) (hz : n = 0) :
    inv m c n h = iprop(∃ d, iprop(iprop((∃ a, owns (c : Thread nD τ) scrA fullShare a) ∗ owns (c : Thread nD τ) scrB fullShare d) ∗ (∃ r, prngReg c r))) := by
  subst hz; rfl

theorem inv_pos (c : Dev nD) (n : ℕ) (h : n ≤ cfg0.N) (hz : n ≠ 0) :
    inv m c n h = iprop(∃ d, iprop(iprop(owns (c : Thread nD τ) scrA fullShare (denseFactor m c) ∗ owns (c : Thread nD τ) scrB fullShare (factorAfter m c d n h)) ∗ (∃ r, prngReg c r))) := by
  cases n with
  | zero => exact absurd rfl hz
  | succ n => rfl

theorem inv_succ (c : Dev nD) (n : ℕ) (h : n + 1 ≤ cfg0.N) :
    inv m c (n + 1) h = iprop(∃ d, iprop(iprop(owns (c : Thread nD τ) scrA fullShare (denseFactor m c) ∗ owns (c : Thread nD τ) scrB fullShare (factorAfter m c d (n + 1) h)) ∗ (∃ r, prngReg c r))) := rfl

/-! ## The proof data -/

/-- The arrays as the region finds them; after the body at point `t` each input's buffer at its block and the output's at
    the point's block of log-softmax rows; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock m c t
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outBlock m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## The body obligation at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 6400000 in
/-- The body at any point, by the point's number: the first point, a later point of the first sweep, or a point of the
    second sweep; in each the matching run applies, and what it leaves is what the invariant and the proof data name. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = inv m c (t.val + 1) t.isLt from rfl, inv_castSucc m c t, inv_succ]
  have hN : t.val < 50 := lt_of_lt_of_eq t.isLt points50
  rw [show (dats m 0 c).leavesExact 0 t = owns (c : Thread nD τ) (stg0 t) fullShare ((dats m 0 c).after 0 t) from by
    unfold Dat.leavesExact; rw [live0 t], after0]
  rw [show (dats m 0 c).leavesExact 1 t = owns (c : Thread nD τ) (stg1 t) fullShare ((dats m 0 c).after 1 t) from by
    unfold Dat.leavesExact; rw [live1 t], after1]
  rw [show (dats m 0 c).leavesExact 2 t = owns (c : Thread nD τ) (stg2 t) fullShare ((dats m 0 c).after 2 t) from by
    unfold Dat.leavesExact; rw [live2 t], after2]
  rw [show (dats m 0 c).leavesExact 3 t = owns (c : Thread nD τ) (stg3 t) fullShare ((dats m 0 c).after 3 t) from by
    unfold Dat.leavesExact; rw [live3 t], after3]
  rw [show (dats m 0 c).leavesExact 4 t = owns (c : Thread nD τ) (stg4 t) fullShare ((dats m 0 c).after 4 t) from by
    unfold Dat.leavesExact; rw [live4 t], after4]
  rw [show (dats m 0 c).leavesExact 5 t = owns (c : Thread nD τ) (stg5 t) fullShare ((dats m 0 c).after 5 t) from by
    unfold Dat.leavesExact; rw [live5 t], after5]
  by_cases h25 : t.val < 25
  · rw [Dat.leavesExact_idle (dats m 0 c) 6 t (idle6_firstSweep t h25) (noFlush6_firstSweep t h25)]
    by_cases h0 : t.val = 0
    · rw [inv_zero m c _ _ h0]
      have ht : t = firstPt := Fin.ext h0
      subst ht
      iintro ⟨⟨%d, ⟨HA, HB⟩, Hg⟩, Ho, ⟨%d0, H0⟩, ⟨%d1, H1⟩, ⟨%d2, H2⟩, ⟨%d3, H3⟩, ⟨%d4, H4⟩, ⟨%d5, H5⟩, ⟨%d6, H6⟩⟩
      iapply ((firstPointRun c (grid0.coords firstPt) _ _ _ _ _ _ _ _ _ _ _ _ _ _ _ _ _ _ ((atStart_iff firstPt).mpr h0) ((inFirstSweep_iff firstPt).mpr h25) (fun h => absurd ((inSecondSweep_iff firstPt).mp h) (by omega)) (iblk m c 0 firstPt) (iblk m c 1 firstPt) (iblk m c 2 firstPt) (iblk m c 3 firstPt) (iblk m c 4 firstPt) (iblk m c 5 firstPt)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HA]; · iexact HA
      isplitl [HB]; · iexact HB
      iintro ⟨H0, H1, H2, H3, H4, H5, H6, ⟨%fA, HA⟩, HB⟩
      isplitl [HA HB Hg]
      · iexists d
        isplitl [HA HB]
        · isplitl [HA]
          · unfold owns; iexists _; isplitr
            swap; · iexact HA
            ipureintro
            exact (firstPointRun_readsA c _ _ _ _ _ _ _ _ _ _ _ _ _ _ _ _ _ _ _ _ _ _ _ _ _ _ _ _ _).trans rfl
          · unfold owns; iexists _; isplitr
            swap; · iexact HB
            ipureintro
            rw [firstPointRun_piecesB]
            exact (factorAfter_succ_lt m c d 0 firstPt.isLt (by decide)).symm
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [inv_pos m c _ _ h0]
      iintro ⟨⟨%d, ⟨HA, HB⟩, Hg⟩, Ho, ⟨%d0, H0⟩, ⟨%d1, H1⟩, ⟨%d2, H2⟩, ⟨%d3, H3⟩, ⟨%d4, H4⟩, ⟨%d5, H5⟩, ⟨%d6, H6⟩⟩
      iapply ((firstSweepRun c (grid0.coords t) _ _ _ _ _ _ _ _ _ _ _ _ _ _ _ _ _ _ (fun h => h0 ((atStart_iff t).mp h)) ((inFirstSweep_iff t).mpr h25) (fun h => absurd ((inSecondSweep_iff t).mp h) (by omega)) (iblk m c 0 t) (iblk m c 1 t) (iblk m c 2 t) (iblk m c 3 t) (iblk m c 4 t) (iblk m c 5 t) (denseFactor m c)).2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HA]; · iexact HA
      isplitl [HB]; · iexact HB
      iintro ⟨H0, H1, H2, H3, H4, H5, H6, HA, HB⟩
      isplitl [HA HB Hg]
      · iexists d
        isplitl [HA HB]
        · isplitl [HA]; · iexact HA
          unfold owns; iexists _; isplitr
          swap; · iexact HB
          ipureintro
          rw [firstSweepRun_pieces]
          exact (factorAfter_succ_lt m c d t.val t.isLt h25).symm
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have h25' : 25 ≤ t.val := by omega
    have h0 : t.val ≠ 0 := by omega
    rw [show (dats m 0 c).leavesExact 6 t = owns (c : Thread nD τ) (stg6 t) fullShare ((dats m 0 c).after 6 t) from by
      unfold Dat.leavesExact; rw [live6_secondSweep t h25'], after6]
    rw [inv_pos m c _ _ h0]
    simp only [factorAfter_eq_full m c _ t.val _ h25', factorAfter_eq_full m c _ (t.val + 1) _ (Nat.le_succ_of_le h25')]
    iintro ⟨⟨%d, ⟨HA, HB⟩, Hg⟩, Ho, ⟨%d0, H0⟩, ⟨%d1, H1⟩, ⟨%d2, H2⟩, ⟨%d3, H3⟩, ⟨%d4, H4⟩, ⟨%d5, H5⟩, ⟨%d6, H6⟩⟩
    iapply ((secondSweepRun c (grid0.coords t) _ _ _ _ _ _ _ _ _ _ _ _ _ _ _ _ _ _ (fun h => h0 ((atStart_iff t).mp h)) (fun h => absurd ((inFirstSweep_iff t).mp h) h25) ((inSecondSweep_iff t).mpr h25') (iblk m c 0 t) (iblk m c 1 t) (iblk m c 2 t) (iblk m c 3 t) (iblk m c 4 t) (iblk m c 5 t) (factorFull m c)).2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HA]; · iexact HA
    isplitl [HB]; · iexact HB
    iintro ⟨H0, H1, H2, H3, H4, H5, ⟨%f6, H6⟩, HA, HB⟩
    isplitl [HA HB Hg]
    · iexists d
      isplitl [HA HB]
      · isplitl [HA]; · iexact HA
        iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro
    exact (secondSweepRun_reads c _ _ _ _ _ _ _ _ _ _ _ _ _ _ _ _ _ _ _ _ _ _ _ _ _ _ _ _ _ _).trans rfl

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, at whatever the second scratch holds. -/
theorem hin (c : Dev nD) : Pipeline.ΦA spec0 c ⊢ (dats m 0 c).Φ 0 := by
  rw [show (dats m 0 c).Φ 0 = inv m c 0 (Nat.zero_le _) from rfl, classInv_eq, inv_zero m c 0 _ rfl]
  iintro ⟨⟨HA, ⟨%d, HB⟩⟩, Hg⟩
  iexists d
  isplitl [HA HB]
  · isplitl [HA]; · iexact HA
    iexact HB
  iexact Hg

/-- After the last point the invariant gives the launch's back: what the scratch buffers hold is forgotten. -/
theorem hout (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl,
    classInv_eq, inv_pos m c _ _ (by rw [Fin.val_last, points50]; decide)]
  iintro ⟨%d, ⟨HA, HB⟩, Hg⟩
  isplitl [HA HB]
  · isplitl [HA]; · iexists _; iexact HA
    iexists _; iexact HB
  iexact Hg

/-! ## The run and the frame -/

set_option backward.isDefEq.respectTransparency.types false in
/-- Every weakly fair execution of @main terminates, and every final state has every array of the pipeline at what the
    library computes from the proof data, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and leaves its argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Sweeps

end
-- ==== Proof.KI.Points.lean ====
/-
  The grid of the fused kernel is two sweeps of 25 row blocks: points 0..24 (the first sweep) and 25..49 (the second).
  Here: the three branch conditions of the body in closed form over the point's number; where the output window is
  idle (the whole first sweep, during which its block is never written back) and where it is live (the second sweep);
  and the staging memrefs the body is called with at a point.
-/
import proofs.«100797_g85014582657441_cont_9to1_m_926_23_alg».proof.Proof.Gen.KernelIdeal.Frame
import proofs.«100797_g85014582657441_cont_9to1_m_926_23_alg».proof.Proof.Gen.KernelIdeal.Skeleton

set_option maxRecDepth 16384

noncomputable section

namespace Cert.KernelIdeal.Sweeps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's three conditions -/

/-- The first conditional of the body: both grid coordinates are zero. -/
abbrev atStart (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem atStart_iff : ∀ t : Fin cfg0.N, atStart (grid0.coords t) ↔ t.val = 0 :=
  (by decide +kernel : ∀ t : Fin grid0.N, atStart (grid0.coords t) ↔ t.val = 0)

/-- The second conditional: the sweep coordinate is 0. -/
abbrev inFirstSweep (i : grid0.Coords) : Prop := k0_cond2 i = 1#1
/-- It holds at points 0..24. -/
theorem inFirstSweep_iff : ∀ t : Fin cfg0.N, inFirstSweep (grid0.coords t) ↔ t.val < 25 :=
  (by decide +kernel : ∀ t : Fin grid0.N, inFirstSweep (grid0.coords t) ↔ t.val < 25)

/-- The third conditional: the sweep coordinate is 1. -/
abbrev inSecondSweep (i : grid0.Coords) : Prop := k0_cond3 i = 1#1
/-- It holds at points 25..49. -/
theorem inSecondSweep_iff : ∀ t : Fin cfg0.N, inSecondSweep (grid0.coords t) ↔ 25 ≤ t.val :=
  (by decide +kernel : ∀ t : Fin grid0.N, inSecondSweep (grid0.coords t) ↔ 25 ≤ t.val)

/-- Point `t` of the first sweep stores rows `400 t .. 400 t + 399` of the second scratch. -/
theorem rowOffset_firstSweep : ∀ t : Fin cfg0.N, t.val < 25 → k0_off1 (grid0.coords t) = ![400 * t.val, 0] :=
  (by decide +kernel : ∀ t : Fin grid0.N, t.val < 25 → k0_off1 (grid0.coords t) = ![400 * t.val, 0])

/-! ## Where the windows are idle, and where the output is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The output window is idle throughout the first sweep, -/
theorem idle6_firstSweep : ∀ t : Fin cfg0.N, t.val < 25 → cfg0.idle 6 (grid0.coords t) = true := by decide +kernel
/-- its block is not written back there, -/
theorem noFlush6_firstSweep : ∀ t : Fin cfg0.N, t.val < 25 → (cfg0.win 6).flush t = false := by decide +kernel
/-- and it is live throughout the second, -/
theorem live6_secondSweep : ∀ t : Fin cfg0.N, 25 ≤ t.val → cfg0.idle 6 (grid0.coords t) = false := by decide +kernel
/-- where every point writes its block back. -/
theorem flush6_secondSweep : ∀ t : Fin cfg0.N, 25 ≤ t.val → (cfg0.win 6).flush t = true := by decide +kernel

/-! ## The memrefs the body is called with -/

abbrev stg0 (t : Fin cfg0.N) : Memref sig .tc .vmem S10000x128 .f32 := win0_0.stage (cfg0.slots t 0)
abbrev stg0_whole (t : Fin cfg0.N) : (stg0 t).IsWhole := hstage0_0 ((cfg0.slots t 0).cast nbuf0_0)
abbrev stg1 (t : Fin cfg0.N) : Memref sig .tc .vmem S400x10000 .f32 := win0_1.stage (cfg0.slots t 1)
abbrev stg1_whole (t : Fin cfg0.N) : (stg1 t).IsWhole := hstage0_1 ((cfg0.slots t 1).cast nbuf0_1)
abbrev stg2 (t : Fin cfg0.N) : Memref sig .tc .vmem S128x64 .f32 := win0_2.stage (cfg0.slots t 2)
abbrev stg2_whole (t : Fin cfg0.N) : (stg2 t).IsWhole := hstage0_2 ((cfg0.slots t 2).cast nbuf0_2)
abbrev stg3 (t : Fin cfg0.N) : Memref sig .tc .vmem S1x64 .f32 := win0_3.stage (cfg0.slots t 3)
abbrev stg3_whole (t : Fin cfg0.N) : (stg3 t).IsWhole := hstage0_3 ((cfg0.slots t 3).cast nbuf0_3)
abbrev stg4 (t : Fin cfg0.N) : Memref sig .tc .vmem S64x16 .f32 := win0_4.stage (cfg0.slots t 4)
abbrev stg4_whole (t : Fin cfg0.N) : (stg4 t).IsWhole := hstage0_4 ((cfg0.slots t 4).cast nbuf0_4)
abbrev stg5 (t : Fin cfg0.N) : Memref sig .tc .vmem S1x16 .f32 := win0_5.stage (cfg0.slots t 5)
abbrev stg5_whole (t : Fin cfg0.N) : (stg5 t).IsWhole := hstage0_5 ((cfg0.slots t 5).cast nbuf0_5)
abbrev stg6 (t : Fin cfg0.N) : Memref sig .tc .vmem S400x16 .f32 := win0_6.stage (cfg0.slots t 6)
abbrev stg6_whole (t : Fin cfg0.N) : (stg6 t).IsWhole := hstage0_6 ((cfg0.slots t 6).cast nbuf0_6)
/-- The two scratch operands: the dense factor `x · W1` (10000 × 64) and the second layer's factor (10000 × 16). -/
abbrev scrA : Memref sig .tc .vmem S10000x64 .f32 := Memref.whole cc0_scratch0
abbrev scrB : Memref sig .tc .vmem S10000x16 .f32 := Memref.whole cc0_scratch1

/-- What the launch hands the region besides the windows: the two scratch buffers at some contents and the generator's register. -/
theorem classInv_eq (c : Dev nD) :
    (Pipeline.ΦA spec0 c : sProp 𝕄)
      = iprop(iprop((∃ d, owns (c : Thread nD τ) scrA fullShare d) ∗ (∃ d, owns (c : Thread nD τ) scrB fullShare d)) ∗ (∃ r, prngReg c r)) := by
  unfold Pipeline.ΦA; rw [scopedRest0_eq]; simp only [scrA, scrB, owns_whole]; try rfl

end Cert.KernelIdeal.Sweeps

end
-- ==== Proof.KI.FirstPoint.lean ====
/-
  The body at the first point of the grid: it forms the dense factor `x · W1` in the first scratch, then (being a point
  of the first sweep) the first 400 rows of the second layer's factor in the second scratch. The output's staging buffer
  is not touched.
-/
import proofs.«100797_g85014582657441_cont_9to1_m_926_23_alg».proof.Proof.KI.Points

set_option maxRecDepth 16384

noncomputable section

namespace Cert.KernelIdeal.Sweeps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's run at the first point, on whole memrefs: the inputs at their contents, the output's buffer at `xi6`, the
    first scratch at anything, the second at `xsB`. It ends with the inputs and the output's buffer as they were, the first
    scratch with the pieces `LA` written, the second with the pieces `LB` written over `xsB`. -/
noncomputable def firstPointRun (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x64 .f32) (harg9 : arg9.IsWhole) (arg10 : Memref sig .tc .vmem S10000x16 .f32) (harg10 : arg10.IsWhole) (hc0 : atStart i) (hc1 : inFirstSweep i) (hc2 : ¬inSecondSweep i)
    (x0 : Vec F S10000x128 .f32) (x1 : Vec F S400x10000 .f32) (x2 : Vec F S128x64 .f32) (x3 : Vec F S1x64 .f32) (x4 : Vec F S64x16 .f32) (x5 : Vec F S1x16 .f32) :
    Σ' (LA : List (View.Piece (Elt F) S10000x64 .f32)), { LB : List (View.Piece (Elt F) S10000x16 .f32) //
      ∀ (xi6 : Vec F S400x16 .f32) (xsB : Vec F S10000x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ owns (c : Thread nD τ) arg10 fullShare xsB
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LA) ∗ (arg10.view.loc (c : Thread nD τ) ↦[arg10.view.set]{fullShare} arg10.view.writes (Elt F) (harg10.unread xsB) LB)) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, ?_, fun xi6 xsB E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dA, %fA, -, HA⟩, ⟨%fB, %hfB, HB⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfB
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HA]; · iexists _; iexact HA
    iexact HB

end Cert.KernelIdeal.Sweeps

end
-- ==== Proof.KI.FirstSweep.lean ====
/-
  The body at a later point of the first sweep: from the dense factor in the first scratch and the point's 400 rows of
  the normalised adjacency it forms the point's 400 rows of the second layer's factor and stores them in the second
  scratch. The first scratch and the output's staging buffer are not touched.
-/
import proofs.«100797_g85014582657441_cont_9to1_m_926_23_alg».proof.Proof.KI.FirstPoint

set_option maxRecDepth 16384

noncomputable section

namespace Cert.KernelIdeal.Sweeps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's run at a point of the first sweep other than the first point: the first scratch at `xsA` in and out, the
    second at `xsB` and then with the pieces `LB` written over it, the output's buffer at `xi6` in and out. -/
noncomputable def firstSweepRun (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x64 .f32) (harg9 : arg9.IsWhole) (arg10 : Memref sig .tc .vmem S10000x16 .f32) (harg10 : arg10.IsWhole) (hc0 : ¬atStart i) (hc1 : inFirstSweep i) (hc2 : ¬inSecondSweep i)
    (x0 : Vec F S10000x128 .f32) (x1 : Vec F S400x10000 .f32) (x2 : Vec F S128x64 .f32) (x3 : Vec F S1x64 .f32) (x4 : Vec F S64x16 .f32) (x5 : Vec F S1x16 .f32) (xsA : Vec F S10000x64 .f32) :
    { LB : List (View.Piece (Elt F) S10000x16 .f32) //
      ∀ (xi6 : Vec F S400x16 .f32) (xsB : Vec F S10000x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xsA ∗ owns (c : Thread nD τ) arg10 fullShare xsB
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xsA ∗ (arg10.view.loc (c : Thread nD τ) ↦[arg10.view.set]{fullShare} arg10.view.writes (Elt F) (harg10.unread xsB) LB)) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, fun xi6 xsB E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fA, %hfA, HA⟩, ⟨%fB, %hfB, HB⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfA; obtain rfl := harg10.eq_unread hfB
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HA]
    · iexists _; isplitr; · ipureintro; exact harg9.read_unread _
      iexact HA
    iexact HB

end Cert.KernelIdeal.Sweeps

end
-- ==== Proof.KI.SecondSweep.lean ====
/-
  The body at a point of the second sweep: from the point's 400 rows of the normalised adjacency and the whole second
  layer's factor in the second scratch it forms 400 rows of logits, and stores their row-wise log-softmax as the output
  block. Neither scratch is written.
-/
import proofs.«100797_g85014582657441_cont_9to1_m_926_23_alg».proof.Proof.KI.FirstSweep

set_option maxRecDepth 16384

noncomputable section

namespace Cert.KernelIdeal.Sweeps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's run at a point of the second sweep: both scratch buffers in and out at their contents, the output's
    staging buffer at anything and then with the pieces `L6` written. -/
noncomputable def secondSweepRun (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x64 .f32) (harg9 : arg9.IsWhole) (arg10 : Memref sig .tc .vmem S10000x16 .f32) (harg10 : arg10.IsWhole) (hc0 : ¬atStart i) (hc1 : ¬inFirstSweep i) (hc2 : inSecondSweep i)
    (x0 : Vec F S10000x128 .f32) (x1 : Vec F S400x10000 .f32) (x2 : Vec F S128x64 .f32) (x3 : Vec F S1x64 .f32) (x4 : Vec F S64x16 .f32) (x5 : Vec F S1x16 .f32) (xsB : Vec F S10000x16 .f32) :
    { L6 : List (View.Piece (Elt F) S400x16 .f32) //
      ∀ (xsA : Vec F S10000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xsA ∗ owns (c : Thread nD τ) arg10 fullShare xsB
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xsA ∗ owns (c : Thread nD τ) arg10 fullShare xsB) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, fun xsA E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fA, %hfA, HA⟩, ⟨%fB, %hfB, HB⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfA; obtain rfl := harg10.eq_unread hfB
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HA]
    · iexists _; isplitr; · ipureintro; exact harg9.read_unread _
      iexact HA
    iexists _; isplitr; · ipureintro; exact harg10.read_unread _
    iexact HB

end Cert.KernelIdeal.Sweeps

end
-- ==== Proof.KI.Pieces.lean ====
/-
  What the three runs leave, piece by piece, with every load of a whole buffer through its whole rectangle read as the
  buffer's contents: the first point writes `x · W1` over all of the first scratch and then its 400-row block of the
  second layer's factor; a later point of the first sweep writes its 400-row block; a point of the second sweep writes
  its whole output block.
-/
import proofs.«100797_g85014582657441_cont_9to1_m_926_23_alg».proof.Proof.KI.SecondSweep
import Idealize.ShloMosaic.Lib.Pipeline.Value

set_option maxRecDepth 16384

noncomputable section

namespace Cert.KernelIdeal.Sweeps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a rank-2 rectangle, as the function the library's whole-rectangle lemmas ask for. -/
theorem zeroOffsets : (![0, 0] : Fin 2 → ℕ) = fun _ => 0 := by
  funext a; fin_cases a <;> rfl

variable (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x64 .f32) (harg9 : arg9.IsWhole) (arg10 : Memref sig .tc .vmem S10000x16 .f32) (harg10 : arg10.IsWhole) (x0 : Vec F S10000x128 .f32) (x1 : Vec F S400x10000 .f32) (x2 : Vec F S128x64 .f32) (x3 : Vec F S1x64 .f32) (x4 : Vec F S64x16 .f32) (x5 : Vec F S1x16 .f32)

/-- A later point of the first sweep leaves ONE piece in the second scratch: rows `k0_off1 i` onward, 400 of them, at
    the block `k0_pay2` computes from the point's rows of the adjacency, the dense factor, the bias and `W2`. -/
theorem firstSweepRun_pieces (hc0 : ¬atStart i) (hc1 : inFirstSweep i) (hc2 : ¬inSecondSweep i) (xsA : Vec F S10000x64 .f32) :
    (firstSweepRun c i arg2 harg2 arg3 harg3 arg4 harg4 arg5 harg5 arg6 harg6 arg7 harg7 arg8 harg8 arg9 harg9 arg10 harg10 hc0 hc1 hc2 x0 x1 x2 x3 x4 x5 xsA).1
      = [⟨Rect.unit (s := S10000x16) (k0_off1 i) S400x16.size (k0_off1_inb i hc1), k0_pay2 x1 xsA x3 x4⟩] := by
  unfold firstSweepRun
  dsimp only
  simp only [View.readAt_eq_ld, harg3.read_unread, harg9.read_unread, harg5.read_unread, harg6.read_unread,
    View.ld_unit_zero (S := S400x10000) zeroOffsets, View.ld_unit_zero (S := S10000x64) zeroOffsets, View.ld_unit_zero (S := S1x64) zeroOffsets, View.ld_unit_zero (S := S64x16) zeroOffsets]

/-- A point of the second sweep leaves ONE piece in the output's staging buffer: the whole block, at what `k0_pay3`
    computes from the point's rows of the adjacency, the second layer's factor and its bias. -/
theorem secondSweepRun_pieces (hc0 : ¬atStart i) (hc1 : ¬inFirstSweep i) (hc2 : inSecondSweep i) (xsB : Vec F S10000x16 .f32) :
    (secondSweepRun c i arg2 harg2 arg3 harg3 arg4 harg4 arg5 harg5 arg6 harg6 arg7 harg7 arg8 harg8 arg9 harg9 arg10 harg10 hc0 hc1 hc2 x0 x1 x2 x3 x4 x5 xsB).1
      = [⟨Rect.unit (s := S400x16) ![0, 0] S400x16.size inb_S400x16_S400x16_0_0, k0_pay3 x1 xsB x5⟩] := by
  unfold secondSweepRun
  dsimp only
  simp only [View.readAt_eq_ld, harg3.read_unread, harg10.read_unread, harg7.read_unread,
    View.ld_unit_zero (S := S400x10000) zeroOffsets, View.ld_unit_zero (S := S10000x16) zeroOffsets, View.ld_unit_zero (S := S1x16) zeroOffsets]

/-- So whatever the output's staging buffer held, after such a point it reads `k0_pay3 x1 xsB x5`. -/
theorem secondSweepRun_reads (hc0 : ¬atStart i) (hc1 : ¬inFirstSweep i) (hc2 : inSecondSweep i) (xsB : Vec F S10000x16 .f32)
    (f : arg8.view.ty.Contents (Elt F)) :
    arg8.view.read (Elt F) (arg8.view.writes (Elt F) f (secondSweepRun c i arg2 harg2 arg3 harg3 arg4 harg4 arg5 harg5 arg6 harg6 arg7 harg7 arg8 harg8 arg9 harg9 arg10 harg10 hc0 hc1 hc2 x0 x1 x2 x3 x4 x5 xsB).1)
      = k0_pay3 x1 xsB x5 := by
  rw [secondSweepRun_pieces]
  rw [View.read_writes_eq_canon _ _ _ (fun y => ⟨_, List.mem_singleton_self _, View.mem_set_unit_zero zeroOffsets inb_S400x16_S400x16_0_0 y⟩)]
  exact View.canon_unit_zero zeroOffsets _ _

/-- The first point leaves in the first scratch, whatever it held, the dense factor `k0_pay1 x0 x2`, -/
theorem firstPointRun_readsA (hc0 : atStart i) (hc1 : inFirstSweep i) (hc2 : ¬inSecondSweep i)
    (f : arg9.view.ty.Contents (Elt F)) :
    arg9.view.read (Elt F) (arg9.view.writes (Elt F) f (firstPointRun c i arg2 harg2 arg3 harg3 arg4 harg4 arg5 harg5 arg6 harg6 arg7 harg7 arg8 harg8 arg9 harg9 arg10 harg10 hc0 hc1 hc2 x0 x1 x2 x3 x4 x5).1)
      = k0_pay1 x0 x2 := by
  unfold firstPointRun
  dsimp only
  sl_unfold_words
  simp only [View.readAt_eq_ld, harg2.read_unread, harg4.read_unread, View.ld_unit_zero (S := S10000x128) zeroOffsets, View.ld_unit_zero (S := S128x64) zeroOffsets]
  rw [View.read_writes_eq_canon _ _ _ (fun y => ⟨_, List.mem_singleton_self _, View.mem_set_unit_zero zeroOffsets inb_S10000x64_S10000x64_0_0 y⟩)]
  exact View.canon_unit_zero zeroOffsets _ _

/-- and in the second scratch ONE piece: its 400-row block, computed from that dense factor. -/
theorem firstPointRun_piecesB (hc0 : atStart i) (hc1 : inFirstSweep i) (hc2 : ¬inSecondSweep i) :
    (firstPointRun c i arg2 harg2 arg3 harg3 arg4 harg4 arg5 harg5 arg6 harg6 arg7 harg7 arg8 harg8 arg9 harg9 arg10 harg10 hc0 hc1 hc2 x0 x1 x2 x3 x4 x5).2.1
      = [⟨Rect.unit (s := S10000x16) (k0_off1 i) S400x16.size (k0_off1_inb i hc1), k0_pay2 x1 (k0_pay1 x0 x2) x3 x4⟩] := by
  unfold firstPointRun
  dsimp only
  sl_unfold_words
  simp only [View.readCov_unit_zero (S := S10000x64) arg9.view zeroOffsets, View.readAt_eq_ld, harg2.read_unread, harg4.read_unread, harg3.read_unread, harg5.read_unread, harg6.read_unread,
    View.ld_unit_zero (S := S10000x128) zeroOffsets, View.ld_unit_zero (S := S128x64) zeroOffsets, View.ld_unit_zero (S := S400x10000) zeroOffsets, View.ld_unit_zero (S := S1x64) zeroOffsets, View.ld_unit_zero (S := S64x16) zeroOffsets]

end Cert.KernelIdeal.Sweeps

end
-- ==== Proof.KI.Data.lean ====
/-
  What the two scratch buffers and the output's staging buffer hold, point by point.

  The first scratch holds `x · W1` from the first point on. The second scratch is filled 400 rows per point during the
  first sweep: after `n ≤ 25` points its rows `0 .. 400 n − 1` hold the second layer's factor `hidden · W2`, block by
  block, and the rows beyond hold whatever they held before the first point. After the 25 points of the first sweep
  nothing of those first contents is left, so the second sweep reads one array, the same whatever the scratch held.
-/
import proofs.«100797_g85014582657441_cont_9to1_m_926_23_alg».proof.Proof.KI.Pieces
import Idealize.ShloMosaic.Lib.WritesUnit
import Idealize.ShloMosaic.Lib.ValueIdx

set_option maxRecDepth 16384

noncomputable section

namespace Cert.KernelIdeal.Sweeps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- The grid has 50 points. -/
theorem points50 : cfg0.N = 50 := N_0

/-- Point 0. -/
abbrev firstPt : Fin cfg0.N := ⟨0, by rw [points50]; decide⟩

theorem scrA_whole : (scrA : Memref sig .tc .vmem S10000x64 .f32).IsWhole := Memref.isWhole_whole _
theorem scrB_whole : (scrB : Memref sig .tc .vmem S10000x16 .f32).IsWhole := Memref.isWhole_whole _

/-- The dense factor `x · W1`, as the body computes it from the (whole) blocks of `x` and `W1`. -/
def denseFactor (c : Dev nD) : Vec F S10000x64 .f32 := k0_pay1 (iblk m c 0 firstPt) (iblk m c 2 firstPt)

/-- The 400 rows of the second layer's factor that point `t` of the first sweep computes. -/
def factorBlock (c : Dev nD) (t : Fin cfg0.N) : Vec F S400x16 .f32 :=
  k0_pay2 (iblk m c 1 t) (denseFactor m c) (iblk m c 3 t) (iblk m c 4 t)

/-- The store of point `t` of the first sweep into the second scratch: its block at its 400 rows. -/
def factorPiece (c : Dev nD) (t : Fin cfg0.N) (ht : t.val < 25) : View.Piece (Elt F) S10000x16 .f32 :=
  ⟨Rect.unit (s := S10000x16) (k0_off1 (grid0.coords t)) S400x16.size (k0_off1_inb (grid0.coords t) ((inFirstSweep_iff t).mpr ht)), factorBlock m c t⟩

/-- What the second scratch holds after `n` points, if it held `d` before the first: each point of the first sweep
    writes its block over what the point before left; the second sweep writes nothing. -/
def factorAfter (c : Dev nD) (d : Vec F S10000x16 .f32) : (n : ℕ) → n ≤ cfg0.N → Vec F S10000x16 .f32
  | 0, _ => d
  | n + 1, hn =>
    if h : n < 25 then
      scrB.view.read (Elt F) (scrB.view.writes (Elt F) (scrB_whole.unread (factorAfter c d n (Nat.le_of_succ_le hn))) [factorPiece m c ⟨n, hn⟩ h])
    else factorAfter c d n (Nat.le_of_succ_le hn)

theorem factorAfter_succ_lt (c : Dev nD) (d : Vec F S10000x16 .f32) (n : ℕ) (hn : n + 1 ≤ cfg0.N) (h : n < 25) :
    factorAfter m c d (n + 1) hn
      = scrB.view.read (Elt F) (scrB.view.writes (Elt F) (scrB_whole.unread (factorAfter m c d n (Nat.le_of_succ_le hn))) [factorPiece m c ⟨n, hn⟩ h]) :=
  dif_pos h

theorem factorAfter_succ_ge (c : Dev nD) (d : Vec F S10000x16 .f32) (n : ℕ) (hn : n + 1 ≤ cfg0.N) (h : ¬n < 25) :
    factorAfter m c d (n + 1) hn = factorAfter m c d n (Nat.le_of_succ_le hn) :=
  dif_neg h

/-- Row `400 k + q` of the second scratch, once block `k` has been written (`k < n ≤ 25`), holds row `q` of block `k`:
    later points write other rows. -/
theorem factorAfter_row (c : Dev nD) (d : Vec F S10000x16 .f32) :
    ∀ (n : ℕ) (hn : n ≤ cfg0.N) (hn25 : n ≤ 25) (k : ℕ) (hk : k < n) (q : Fin 400) (j : Fin 16) (y : S10000x16.Idx)
      (hy0 : (y 0).val = 400 * k + q.val) (hy1 : (y 1).val = j.val),
      factorAfter m c d n hn y = factorBlock m c ⟨k, by have := points50; omega⟩ (ix2 q j)
  | 0, _, _, k, hk, _, _, _, _, _ => absurd hk (Nat.not_lt_zero k)
  | n + 1, hn, hn25, k, hk, q, j, y, hy0, hy1 => by
    have hlt : n < 25 := by omega
    rw [factorAfter_succ_lt m c d n hn hlt]
    have hoff : k0_off1 (grid0.coords (⟨n, hn⟩ : Fin cfg0.N)) = ![400 * n, 0] := rowOffset_firstSweep ⟨n, hn⟩ hlt
    by_cases hkn : k = n
    · subst hkn
      exact View.read_writes_cons_rows_of_mem (d := ![10000, 16]) scrB.view _ _ (factorBlock m c ⟨k, hn⟩) [] y (ix2 q j) hoff hy0 hy1
    · have hk' : k < n := by omega
      unfold factorPiece
      rw [View.read_writes_cons_rows_of_not_mem (d := ![10000, 16]) scrB.view _ _ _ [] y hoff rfl (Or.inl (by omega))]
      rw [View.writes_nil, scrB_whole.read_unread]
      exact factorAfter_row c d n (Nat.le_of_succ_le hn) (by omega) k hk' q j y hy0 hy1

/-- After the whole first sweep the second scratch does not depend on what it held before. -/
theorem factorAfter_25_indep (c : Dev nD) (d d' : Vec F S10000x16 .f32) (h : 25 ≤ cfg0.N) :
    factorAfter m c d 25 h = factorAfter m c d' 25 h := by
  funext y
  have hy := (y 0).isLt
  have hq : (y 0).val % 400 < 400 := Nat.mod_lt _ (by decide)
  have hk : (y 0).val / 400 < 25 := by
    have : (y 0).val < 10000 := hy
    omega
  have e0 : (y 0).val = 400 * ((y 0).val / 400) + (⟨(y 0).val % 400, hq⟩ : Fin 400).val := (Nat.div_add_mod _ _).symm
  rw [factorAfter_row m c d 25 h le_rfl _ hk ⟨(y 0).val % 400, hq⟩ (y 1) y e0 rfl,
    factorAfter_row m c d' 25 h le_rfl _ hk ⟨(y 0).val % 400, hq⟩ (y 1) y e0 rfl]

/-- During the second sweep the second scratch stays as the first sweep left it. -/
theorem factorAfter_of_ge (c : Dev nD) (d : Vec F S10000x16 .f32) :
    ∀ (n : ℕ) (hn : n ≤ cfg0.N) (h25 : 25 ≤ n), factorAfter m c d n hn = factorAfter m c d 25 (le_trans h25 hn)
  | 0, _, h25 => absurd h25 (by decide)
  | n + 1, hn, h25 => by
    by_cases hlt : n < 25
    · have : n = 24 := by omega
      subst this
      rfl
    · rw [factorAfter_succ_ge m c d n hn hlt]
      exact factorAfter_of_ge c d n (Nat.le_of_succ_le hn) (by omega)

/-- The whole second-layer factor, as the second sweep finds it in the second scratch. -/
def factorFull (c : Dev nD) : Vec F S10000x16 .f32 :=
  factorAfter m c (scrB.view.read (Elt F) scrB.view.junk) 25 (by rw [points50]; decide)

theorem factorAfter_eq_full (c : Dev nD) (d : Vec F S10000x16 .f32) (n : ℕ) (hn : n ≤ cfg0.N) (h25 : 25 ≤ n) :
    factorAfter m c d n hn = factorFull m c :=
  (factorAfter_of_ge m c d n hn h25).trans (factorAfter_25_indep m c d _ _)

/-- The output block point `t` of the second sweep computes. -/
def outBlock (c : Dev nD) (t : Fin cfg0.N) : Vec F S400x16 .f32 :=
  k0_pay3 (iblk m c 1 t) (factorFull m c) (iblk m c 5 t)

end Cert.KernelIdeal.Sweeps

end
-- ==== Proof.KI.Body.lean ====
/-
  The body obligation of the fused kernel and its run.

  The invariant between points: before the first point both scratch buffers hold anything; afterwards the first holds
  `x · W1` and the second what `n` points leave of it over SOME first contents (bound once, by an existential: no value
  the kernel reads depends on them, because the second sweep starts only when every row has been written). The output's
  staging buffer is handed back untouched during the first sweep, where its window is idle and not written back, and holds
  the point's block of log-softmax rows during the second.
-/
import proofs.«100797_g85014582657441_cont_9to1_m_926_23_alg».proof.Proof.KI.Data

set_option maxRecDepth 16384

noncomputable section

namespace Cert.KernelIdeal.Sweeps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant -/

/-- The region's invariant before point `n`. -/
def inv (c : Dev nD) : (n : ℕ) → n ≤ cfg0.N → sProp 𝕄
  | 0, _ => iprop(∃ d, iprop(iprop((∃ a, owns (c : Thread nD τ) scrA fullShare a) ∗ owns (c : Thread nD τ) scrB fullShare d) ∗ (∃ r, prngReg c r)))
  | n + 1, h => iprop(∃ d, iprop(iprop(owns (c : Thread nD τ) scrA fullShare (denseFactor m c) ∗ owns (c : Thread nD τ) scrB fullShare (factorAfter m c d (n + 1) h)) ∗ (∃ r, prngReg c r)))

theorem inv_zero (c : Dev nD) (n : ℕ) (h : n ≤ cfg0.N) (hz : n = 0) :
    inv m c n h = iprop(∃ d, iprop(iprop((∃ a, owns (c : Thread nD τ) scrA fullShare a) ∗ owns (c : Thread nD τ) scrB fullShare d) ∗ (∃ r, prngReg c r))) := by
  subst hz; rfl

theorem inv_pos (c : Dev nD) (n : ℕ) (h : n ≤ cfg0.N) (hz : n ≠ 0) :
    inv m c n h = iprop(∃ d, iprop(iprop(owns (c : Thread nD τ) scrA fullShare (denseFactor m c) ∗ owns (c : Thread nD τ) scrB fullShare (factorAfter m c d n h)) ∗ (∃ r, prngReg c r))) := by
  cases n with
  | zero => exact absurd rfl hz
  | succ n => rfl

theorem inv_succ (c : Dev nD) (n : ℕ) (h : n + 1 ≤ cfg0.N) :
    inv m c (n + 1) h = iprop(∃ d, iprop(iprop(owns (c : Thread nD τ) scrA fullShare (denseFactor m c) ∗ owns (c : Thread nD τ) scrB fullShare (factorAfter m c d (n + 1) h)) ∗ (∃ r, prngReg c r))) := rfl

/-! ## The proof data -/

/-- The arrays as the region finds them; after the body at point `t` each input's buffer at its block and the output's at
    the point's block of log-softmax rows; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock m c t
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outBlock m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## The body obligation at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 6400000 in
/-- The body at any point, by the point's number: the first point, a later point of the first sweep, or a point of the
    second sweep; in each the matching run applies, and what it leaves is what the invariant and the proof data name. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = inv m c (t.val + 1) t.isLt from rfl, inv_castSucc m c t, inv_succ]
  have hN : t.val < 50 := lt_of_lt_of_eq t.isLt points50
  rw [show (dats m 0 c).leavesExact 0 t = owns (c : Thread nD τ) (stg0 t) fullShare ((dats m 0 c).after 0 t) from by
    unfold Dat.leavesExact; rw [live0 t], after0]
  rw [show (dats m 0 c).leavesExact 1 t = owns (c : Thread nD τ) (stg1 t) fullShare ((dats m 0 c).after 1 t) from by
    unfold Dat.leavesExact; rw [live1 t], after1]
  rw [show (dats m 0 c).leavesExact 2 t = owns (c : Thread nD τ) (stg2 t) fullShare ((dats m 0 c).after 2 t) from by
    unfold Dat.leavesExact; rw [live2 t], after2]
  rw [show (dats m 0 c).leavesExact 3 t = owns (c : Thread nD τ) (stg3 t) fullShare ((dats m 0 c).after 3 t) from by
    unfold Dat.leavesExact; rw [live3 t], after3]
  rw [show (dats m 0 c).leavesExact 4 t = owns (c : Thread nD τ) (stg4 t) fullShare ((dats m 0 c).after 4 t) from by
    unfold Dat.leavesExact; rw [live4 t], after4]
  rw [show (dats m 0 c).leavesExact 5 t = owns (c : Thread nD τ) (stg5 t) fullShare ((dats m 0 c).after 5 t) from by
    unfold Dat.leavesExact; rw [live5 t], after5]
  by_cases h25 : t.val < 25
  · rw [Dat.leavesExact_idle (dats m 0 c) 6 t (idle6_firstSweep t h25) (noFlush6_firstSweep t h25)]
    by_cases h0 : t.val = 0
    · rw [inv_zero m c _ _ h0]
      have ht : t = firstPt := Fin.ext h0
      subst ht
      iintro ⟨⟨%d, ⟨HA, HB⟩, Hg⟩, Ho, ⟨%d0, H0⟩, ⟨%d1, H1⟩, ⟨%d2, H2⟩, ⟨%d3, H3⟩, ⟨%d4, H4⟩, ⟨%d5, H5⟩, ⟨%d6, H6⟩⟩
      iapply ((firstPointRun c (grid0.coords firstPt) _ _ _ _ _ _ _ _ _ _ _ _ _ _ _ _ _ _ ((atStart_iff firstPt).mpr h0) ((inFirstSweep_iff firstPt).mpr h25) (fun h => absurd ((inSecondSweep_iff firstPt).mp h) (by omega)) (iblk m c 0 firstPt) (iblk m c 1 firstPt) (iblk m c 2 firstPt) (iblk m c 3 firstPt) (iblk m c 4 firstPt) (iblk m c 5 firstPt)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HA]; · iexact HA
      isplitl [HB]; · iexact HB
      iintro ⟨H0, H1, H2, H3, H4, H5, H6, ⟨%fA, HA⟩, HB⟩
      isplitl [HA HB Hg]
      · iexists d
        isplitl [HA HB]
        · isplitl [HA]
          · unfold owns; iexists _; isplitr
            swap; · iexact HA
            ipureintro
            exact (firstPointRun_readsA c _ _ _ _ _ _ _ _ _ _ _ _ _ _ _ _ _ _ _ _ _ _ _ _ _ _ _ _ _).trans rfl
          · unfold owns; iexists _; isplitr
            swap; · iexact HB
            ipureintro
            rw [firstPointRun_piecesB]
            exact (factorAfter_succ_lt m c d 0 firstPt.isLt (by decide)).symm
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [inv_pos m c _ _ h0]
      iintro ⟨⟨%d, ⟨HA, HB⟩, Hg⟩, Ho, ⟨%d0, H0⟩, ⟨%d1, H1⟩, ⟨%d2, H2⟩, ⟨%d3, H3⟩, ⟨%d4, H4⟩, ⟨%d5, H5⟩, ⟨%d6, H6⟩⟩
      iapply ((firstSweepRun c (grid0.coords t) _ _ _ _ _ _ _ _ _ _ _ _ _ _ _ _ _ _ (fun h => h0 ((atStart_iff t).mp h)) ((inFirstSweep_iff t).mpr h25) (fun h => absurd ((inSecondSweep_iff t).mp h) (by omega)) (iblk m c 0 t) (iblk m c 1 t) (iblk m c 2 t) (iblk m c 3 t) (iblk m c 4 t) (iblk m c 5 t) (denseFactor m c)).2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HA]; · iexact HA
      isplitl [HB]; · iexact HB
      iintro ⟨H0, H1, H2, H3, H4, H5, H6, HA, HB⟩
      isplitl [HA HB Hg]
      · iexists d
        isplitl [HA HB]
        · isplitl [HA]; · iexact HA
          unfold owns; iexists _; isplitr
          swap; · iexact HB
          ipureintro
          rw [firstSweepRun_pieces]
          exact (factorAfter_succ_lt m c d t.val t.isLt h25).symm
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have h25' : 25 ≤ t.val := by omega
    have h0 : t.val ≠ 0 := by omega
    rw [show (dats m 0 c).leavesExact 6 t = owns (c : Thread nD τ) (stg6 t) fullShare ((dats m 0 c).after 6 t) from by
      unfold Dat.leavesExact; rw [live6_secondSweep t h25'], after6]
    rw [inv_pos m c _ _ h0]
    simp only [factorAfter_eq_full m c _ t.val _ h25', factorAfter_eq_full m c _ (t.val + 1) _ (Nat.le_succ_of_le h25')]
    iintro ⟨⟨%d, ⟨HA, HB⟩, Hg⟩, Ho, ⟨%d0, H0⟩, ⟨%d1, H1⟩, ⟨%d2, H2⟩, ⟨%d3, H3⟩, ⟨%d4, H4⟩, ⟨%d5, H5⟩, ⟨%d6, H6⟩⟩
    iapply ((secondSweepRun c (grid0.coords t) _ _ _ _ _ _ _ _ _ _ _ _ _ _ _ _ _ _ (fun h => h0 ((atStart_iff t).mp h)) (fun h => absurd ((inFirstSweep_iff t).mp h) h25) ((inSecondSweep_iff t).mpr h25') (iblk m c 0 t) (iblk m c 1 t) (iblk m c 2 t) (iblk m c 3 t) (iblk m c 4 t) (iblk m c 5 t) (factorFull m c)).2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HA]; · iexact HA
    isplitl [HB]; · iexact HB
    iintro ⟨H0, H1, H2, H3, H4, H5, ⟨%f6, H6⟩, HA, HB⟩
    isplitl [HA HB Hg]
    · iexists d
      isplitl [HA HB]
      · isplitl [HA]; · iexact HA
        iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro
    exact (secondSweepRun_reads c _ _ _ _ _ _ _ _ _ _ _ _ _ _ _ _ _ _ _ _ _ _ _ _ _ _ _ _ _ _).trans rfl

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, at whatever the second scratch holds. -/
theorem hin (c : Dev nD) : Pipeline.ΦA spec0 c ⊢ (dats m 0 c).Φ 0 := by
  rw [show (dats m 0 c).Φ 0 = inv m c 0 (Nat.zero_le _) from rfl, classInv_eq, inv_zero m c 0 _ rfl]
  iintro ⟨⟨HA, ⟨%d, HB⟩⟩, Hg⟩
  iexists d
  isplitl [HA HB]
  · isplitl [HA]; · iexact HA
    iexact HB
  iexact Hg

/-- After the last point the invariant gives the launch's back: what the scratch buffers hold is forgotten. -/
theorem hout (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl,
    classInv_eq, inv_pos m c _ _ (by rw [Fin.val_last, points50]; decide)]
  iintro ⟨%d, ⟨HA, HB⟩, Hg⟩
  isplitl [HA HB]
  · isplitl [HA]; · iexists _; iexact HA
    iexists _; iexact HB
  iexact Hg

/-! ## The run and the frame -/

set_option backward.isDefEq.respectTransparency.types false in
/-- Every weakly fair execution of @main terminates, and every final state has every array of the pipeline at what the
    library computes from the proof data, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and leaves its argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Sweeps

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.LibColumn.lean ====
/-
  Column vectors read at an index.

  A vector of length `a` re-laid as an `a × 1` column holds, at row `i`, the vector's entry `i`.
  An `a × 1` column broadcast to `a × b` holds, at `(p, c)`, the column's entry at row `p`.
  Summing an `a × 1` column over its rows, or an `a × b` array over its columns, inserts the summed
  coordinate at the place the reduced index leaves open: the inserted index is `(k, u)` resp. `(r, k)`.
-/
import Idealize.ShloMosaic.Lib.Pipeline.Value
import Idealize.ShloMosaic.Lib.ValueIdx
import Idealize.ShloMosaic.PureOps.Reduce

namespace Cert.LibColumn

open Idealize.ShloMosaic Idealize.ShloMosaic.ValueIdx

variable {α : Type}

/-- A length-`a` vector cast to an `a × 1` column reads, at `(i, 0)`, the vector at `i`:
    both positions are number `i` in row-major order. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Summing an `a × b` array along its columns: the index of row `r` with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Summing an `a × 1` column along its rows: the one reduced index with row `k` put back is `(k, 0)`. -/
theorem lift_rows {a : ℕ} (h : (⟨2, ![a, 1]⟩ : Shape).Reduces [0] (⟨1, ![1]⟩ : Shape)) (u : Fin 1)
    (k : Fin ((⟨2, ![a, 1]⟩ : Shape).size 0)) : h.lift (ix1 u) k = ix2 (⟨k.val, k.isLt⟩ : Fin a) u := by
  funext c; apply Fin.ext
  fin_cases c <;> rfl

end Cert.LibColumn
-- ==== Proof.Layers.lean ====
/-
  The three values the kernel body computes, read at one entry over the extended reals.

  `k0_pay1 x W` is the product `x · W`: entry `(k, h)` is `Σ_f x(k, f) · W(f, h)`.
  `k0_pay2 N A b W` is `max (N · A + b) 0 · W` for a block `N` of 400 rows of the adjacency: entry `(q, j)` is
  `Σ_h max (Σ_k N(q, k) · A(k, h) + b(0, h)) 0 · W(h, j)`.
  `k0_pay3 N B b` is the row-wise log-softmax of `N · B + b`: with `z(q, j) = Σ_k N(q, k) · B(k, j) + b(0, j)`, top `= max_j z(q, j)`
  and `e(q, j) = exp (z(q, j) − top)`, entry `(q, j)` is `log (e(q, j) / Σ_j' e(q, j'))`.
  A matrix product into the zero accumulator is the plain sum; a one-row bias broadcast down the rows reads its one row;
  a per-row statistic kept as a column and broadcast back along the row reads the statistic of that row.
-/
import proofs.«100797_g85014582657441_cont_9to1_m_926_23_alg».proof.Proof.Gen.KernelIdeal.Skeleton
import proofs.«100797_g85014582657441_cont_9to1_m_926_23_alg».proof.Proof.LibPlainMatmul
import proofs.«100797_g85014582657441_cont_9to1_m_926_23_alg».proof.Proof.LibColumn
import Idealize.ShloMosaic.Lib.ValueLayout
import Idealize.ShloMosaic.Lib.Pipeline.Value
import Idealize.ShloMosaic.PureOps.Ideal.Laws

noncomputable section

open scoped BigOperators

namespace Cert.KernelIdeal.Layers

open Idealize.ShloMosaic Idealize.ShloMosaic.ValueIdx Cert.KernelIdeal Cert.KernelIdeal.Gen

/-! ## Layout: one bias row down the rows, one statistic per row along the row -/

/-- A `1 × b` row (cast to itself) broadcast to `a × b` reads, at `(p, c)`, the row at `c`. -/
theorem biasRow_apply {a b : ℕ} (v : (⟨2, ![1, b]⟩ : Shape).Idx → EReal) (hc : (⟨2, ![1, b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hc) hb (ix2 p c) = v (ix2 (0 : Fin 1) c) :=
  (broadcastTo_1b_ab_apply _ hb p c).trans (congrFun (shapeCast_self v hc) _)

/-- A length-`a` vector kept as an `a × 1` column and broadcast to `a × b` reads, at `(p, c)`, the vector at `p`. -/
theorem perRow_apply {a b : ℕ} (v : (⟨1, ![a]⟩ : Shape).Idx → EReal) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ v hc) hb (ix2 p c) = v (ix1 p) :=
  (Cert.LibColumn.broadcastTo_a1_ab_apply _ hb p c).trans (Cert.LibColumn.shapeCast_a_a1_apply v hc p 0)

/-- The sum of a `400 × 16` array along its rows, at row `q`: the sum of the row's 16 entries. -/
theorem rowSum_apply (v : FVec Ideal S400x16 .f32) (h : S400x16.Reduces [1] S400) (hφ : FKind.Formats .f32)
    (hacc : (0x00000000#32 : BitVec 32) = FKind.add.neutral .f32 hφ) (q : Fin 400) :
    multiReduction .add [1] S400 v 0x00000000#32 h hφ hacc (ix1 q) = ∑ j : Fin 16, v (ix2 q j) :=
  (Ideal.multiReduction_add_single v _ h hφ hacc (ix1 q)).trans
    (Finset.sum_congr rfl fun k _ => congrArg v (Cert.LibColumn.lift_cols h q k))

/-- The maximum of a `400 × 16` array along its rows, at row `q`: the fold of `max` over the row's 16 entries from −∞'s word. -/
theorem rowMax_apply (v : FVec Ideal S400x16 .f32) (h : S400x16.Reduces [1] S400) (hφ : FKind.Formats .f32)
    (hacc : (0xFF800000#32 : BitVec 32) = FKind.maximumf.neutral .f32 hφ) (q : Fin 400) :
    multiReduction .maximumf [1] S400 v 0xFF800000#32 h hφ hacc (ix1 q)
      = (Finset.univ : Finset (Fin 16)).fold max (Ideal.ofBits .f32 0xFF800000#32) (fun j => v (ix2 q j)) :=
  (Ideal.multiReduction_maximumf_single v _ h hφ hacc (ix1 q)).trans
    (congrArg (fun g => (Finset.univ : Finset (Fin 16)).fold max (Ideal.ofBits .f32 0xFF800000#32) g)
      (funext fun k => congrArg v (Cert.LibColumn.lift_cols h q k)))

/-! ## The three values -/

/-- `x · W` at `(k, h)`. -/
theorem dense_apply (x0 : Vec Ideal S10000x128 .f32) (x2 : Vec Ideal S128x64 .f32) (k : Fin 10000) (h : Fin 64) :
    k0_pay1 (F := Ideal) x0 x2 (ix2 k h) = ∑ f : Fin 128, x0 (ix2 k f) * x2 (ix2 f h) := by
  unfold k0_pay1
  refine (congrFun (shapeCast_self _ _) _).trans ?_
  exact Cert.LibPlainMatmul.matmul_plain_zero_apply _ rfl none x0 x2 k h

/-- One clamped hidden entry: `max (Σ_k N(q, k) · A(k, h) + b(0, h)) 0`. -/
def hiddenAt (x1 : Vec Ideal S400x10000 .f32) (A : Vec Ideal S10000x64 .f32) (x3 : Vec Ideal S1x64 .f32) (q : Fin 400) (h : Fin 64) : EReal :=
  max ((∑ k : Fin 10000, x1 (ix2 q k) * A (ix2 k h)) + x3 (ix2 (0 : Fin 1) h)) (Ideal.ofBits .f32 0x00000000#32)

/-- `max (N · A + b) 0 · W` at `(q, j)`. -/
theorem factorBlock_apply (x1 : Vec Ideal S400x10000 .f32) (A : Vec Ideal S10000x64 .f32) (x3 : Vec Ideal S1x64 .f32)
    (x4 : Vec Ideal S64x16 .f32) (q : Fin 400) (j : Fin 16) :
    k0_pay2 (F := Ideal) x1 A x3 x4 (ix2 q j) = ∑ h : Fin 64, hiddenAt x1 A x3 q h * x4 (ix2 h j) := by
  unfold k0_pay2
  refine (congrFun (shapeCast_self _ _) _).trans ?_
  refine (Cert.LibPlainMatmul.matmul_plain_zero_apply _ rfl none _ x4 q j).trans ?_
  refine Finset.sum_congr rfl fun h _ => ?_
  refine congrArg (fun a : EReal => a * x4 (ix2 h j)) ?_
  unfold hiddenAt
  refine congrArg (fun s => max s (Ideal.ofBits .f32 0x00000000#32)) ?_
  refine congrArg₂ (fun a b : EReal => a + b) ?_ ?_
  · exact Cert.LibPlainMatmul.matmul_plain_zero_apply _ rfl none x1 A q h
  · exact biasRow_apply x3 _ _ q h

/-- One logit: `Σ_k N(q, k) · B(k, j) + b(0, j)`. -/
def logitAt (x1 : Vec Ideal S400x10000 .f32) (B : Vec Ideal S10000x16 .f32) (x5 : Vec Ideal S1x16 .f32) (q : Fin 400) (j : Fin 16) : EReal :=
  (∑ k : Fin 10000, x1 (ix2 q k) * B (ix2 k j)) + x5 (ix2 (0 : Fin 1) j)

/-- The row's largest logit. -/
def topAt (x1 : Vec Ideal S400x10000 .f32) (B : Vec Ideal S10000x16 .f32) (x5 : Vec Ideal S1x16 .f32) (q : Fin 400) : EReal :=
  (Finset.univ : Finset (Fin 16)).fold max (Ideal.ofBits .f32 0xFF800000#32) (fun j => logitAt x1 B x5 q j)

/-- `exp (logit − top)`. -/
def expAt (x1 : Vec Ideal S400x10000 .f32) (B : Vec Ideal S10000x16 .f32) (x5 : Vec Ideal S1x16 .f32) (q : Fin 400) (j : Fin 16) : EReal :=
  Ideal.exp (logitAt x1 B x5 q j - topAt x1 B x5 q)

/-- The block's logits `N · B + b`, as the body forms them. -/
def logitsArr (x1 : Vec Ideal S400x10000 .f32) (B : Vec Ideal S10000x16 .f32) (x5 : Vec Ideal S1x16 .f32) : FVec Ideal S400x16 .f32 :=
  addf (matmul (φ₁ := .f32) (φ₂ := .f32) dot_S400x10000_S10000x16_S400x16_1_0_0_1_n_n none x1 B (constant S400x16 .f32 0x00000000#32))
    (broadcastTo S400x16 (shapeCast S1x16 x5 shapeCasts_S1x16_S1x16) broadcasts_S1x16_S400x16)

/-- Each row's largest logit, broadcast back along the row. -/
def topArr (x1 : Vec Ideal S400x10000 .f32) (B : Vec Ideal S10000x16 .f32) (x5 : Vec Ideal S1x16 .f32) : FVec Ideal S400x16 .f32 :=
  broadcastTo S400x16 (shapeCast S400x1 (multiReduction .maximumf [1] S400 (logitsArr x1 B x5) 0xFF800000#32 reduces_S400x16_S400 (.inl rfl) rfl) shapeCasts_S400_S400x1) broadcasts_S400x1_S400x16

/-- `exp (logits − top)`. -/
def expArr (x1 : Vec Ideal S400x10000 .f32) (B : Vec Ideal S10000x16 .f32) (x5 : Vec Ideal S1x16 .f32) : FVec Ideal S400x16 .f32 :=
  exp (subf (logitsArr x1 B x5) (topArr x1 B x5))

/-- Each row's sum of exponentials, broadcast back along the row. -/
def sumArr (x1 : Vec Ideal S400x10000 .f32) (B : Vec Ideal S10000x16 .f32) (x5 : Vec Ideal S1x16 .f32) : FVec Ideal S400x16 .f32 :=
  broadcastTo S400x16 (shapeCast S400x1 (multiReduction .add [1] S400 (expArr x1 B x5) 0x00000000#32 reduces_S400x16_S400 (.inl rfl) rfl) shapeCasts_S400_S400x1) broadcasts_S400x1_S400x16

/-- The body's third value is `log (exp / sum)` of these. -/
theorem pay3_eq (x1 : Vec Ideal S400x10000 .f32) (B : Vec Ideal S10000x16 .f32) (x5 : Vec Ideal S1x16 .f32) :
    k0_pay3 (F := Ideal) x1 B x5 = log (divf (expArr x1 B x5) (sumArr x1 B x5)) := rfl

theorem logitsArr_apply (x1 : Vec Ideal S400x10000 .f32) (B : Vec Ideal S10000x16 .f32) (x5 : Vec Ideal S1x16 .f32)
    (q : Fin 400) (j : Fin 16) : logitsArr x1 B x5 (ix2 q j) = logitAt x1 B x5 q j := by
  unfold logitsArr logitAt
  refine congrArg₂ (fun a b : EReal => a + b) ?_ ?_
  · exact Cert.LibPlainMatmul.matmul_plain_zero_apply _ rfl none x1 B q j
  · exact biasRow_apply x5 _ _ q j

theorem topArr_apply (x1 : Vec Ideal S400x10000 .f32) (B : Vec Ideal S10000x16 .f32) (x5 : Vec Ideal S1x16 .f32)
    (q : Fin 400) (j : Fin 16) : topArr x1 B x5 (ix2 q j) = topAt x1 B x5 q := by
  unfold topArr topAt
  refine (perRow_apply _ _ _ q j).trans ?_
  refine (rowMax_apply (logitsArr x1 B x5) _ _ _ q).trans ?_
  exact congrArg (fun g => (Finset.univ : Finset (Fin 16)).fold max (Ideal.ofBits .f32 0xFF800000#32) g)
    (funext fun j' => logitsArr_apply x1 B x5 q j')

theorem expArr_apply (x1 : Vec Ideal S400x10000 .f32) (B : Vec Ideal S10000x16 .f32) (x5 : Vec Ideal S1x16 .f32)
    (q : Fin 400) (j : Fin 16) : expArr x1 B x5 (ix2 q j) = expAt x1 B x5 q j := by
  unfold expArr expAt
  show Ideal.exp (logitsArr x1 B x5 (ix2 q j) - topArr x1 B x5 (ix2 q j)) = _
  rw [logitsArr_apply, topArr_apply]

theorem sumArr_apply (x1 : Vec Ideal S400x10000 .f32) (B : Vec Ideal S10000x16 .f32) (x5 : Vec Ideal S1x16 .f32)
    (q : Fin 400) (j : Fin 16) : sumArr x1 B x5 (ix2 q j) = ∑ j' : Fin 16, expAt x1 B x5 q j' := by
  unfold sumArr
  refine (perRow_apply _ _ _ q j).trans ?_
  refine (rowSum_apply (expArr x1 B x5) _ _ _ q).trans ?_
  exact Finset.sum_congr rfl fun j' _ => expArr_apply x1 B x5 q j'

/-- The row-wise log-softmax of `N · B + b` at `(q, j)`. -/
theorem outBlock_apply (x1 : Vec Ideal S400x10000 .f32) (B : Vec Ideal S10000x16 .f32) (x5 : Vec Ideal S1x16 .f32)
    (q : Fin 400) (j : Fin 16) :
    k0_pay3 (F := Ideal) x1 B x5 (ix2 q j)
      = Ideal.log (Ideal.div (expAt x1 B x5 q j) (∑ j' : Fin 16, expAt x1 B x5 q j')) := by
  rw [pay3_eq]
  show Ideal.log (Ideal.div (expArr x1 B x5 (ix2 q j)) (sumArr x1 B x5 (ix2 q j))) = _
  rw [expArr_apply, sumArr_apply]

end Cert.KernelIdeal.Layers

end
-- ==== Proof.GcnSpec.lean ====
/-
  Two graph-convolution layers over a dense normalised adjacency, then a row-wise log-softmax, as ONE function of the
  six argument arrays over the extended reals, entry by entry:

    dense  = x · W1                               (10000 × 64)
    hidden = max (norm · dense + b1) 0            (10000 × 64)
    proj   = hidden · W2                          (10000 × 16)
    logit  = norm · proj + b2                     (10000 × 16)
    out    = log (e / Σ_j e),  e = exp (logit − max_j logit)   row by row.

  Every product is the plain sum over the contracted axis; the row maximum is the fold of `max` from the float word of −∞;
  the zero that the hidden layer is clamped at is kept as its float word, which both programs spell the same way.
-/
import Idealize.ShloMosaic.PureOps.Ideal
import Idealize.ShloMosaic.Lib.ValueIdx

noncomputable section

open scoped BigOperators

namespace Cert.GcnSpec

open Idealize.ShloMosaic Idealize.ShloMosaic.ValueIdx

/-- An `a × b` array of extended reals. -/
abbrev Mat (a b : ℕ) : Type := (⟨2, ![a, b]⟩ : Shape).Idx → EReal
/-- A length-`a` vector of extended reals. -/
abbrev Row (a : ℕ) : Type := (⟨1, ![a]⟩ : Shape).Idx → EReal

variable (x : Mat 10000 128) (norm : Mat 10000 10000) (W1 : Mat 128 64) (b1 : Row 64) (W2 : Mat 64 16) (b2 : Row 16)

/-- Entry `(k, h)` of `x · W1`. -/
def dense (k : Fin 10000) (h : Fin 64) : EReal := ∑ f : Fin 128, x (ix2 k f) * W1 (ix2 f h)

/-- Entry `(r, h)` of the hidden layer: `norm · (x · W1) + b1`, clamped below at zero. -/
def hidden (r : Fin 10000) (h : Fin 64) : EReal :=
  max ((∑ k : Fin 10000, norm (ix2 r k) * dense x W1 k h) + b1 (ix1 h)) (Ideal.ofBits .f32 0x00000000#32)

/-- Entry `(r, j)` of `hidden · W2`. -/
def proj (r : Fin 10000) (j : Fin 16) : EReal := ∑ h : Fin 64, hidden x norm W1 b1 r h * W2 (ix2 h j)

/-- Entry `(r, j)` of the second layer: `norm · (hidden · W2) + b2`. -/
def logit (r : Fin 10000) (j : Fin 16) : EReal :=
  (∑ k : Fin 10000, norm (ix2 r k) * proj x norm W1 b1 W2 k j) + b2 (ix1 j)

/-- The largest logit of row `r` (from −∞). -/
def rowMax (r : Fin 10000) : EReal :=
  (Finset.univ : Finset (Fin 16)).fold max (Ideal.ofBits .f32 0xFF800000#32) (fun j => logit x norm W1 b1 W2 b2 r j)

/-- `exp (logit − rowMax)` at `(r, j)`. -/
def shifted (r : Fin 10000) (j : Fin 16) : EReal :=
  Ideal.exp (logit x norm W1 b1 W2 b2 r j - rowMax x norm W1 b1 W2 b2 r)

/-- The log-softmax of row `r` at column `j`, in the form both programs compute it: `log (e / Σ e)`. -/
def logSoftmax (r : Fin 10000) (j : Fin 16) : EReal :=
  Ideal.log (Ideal.div (shifted x norm W1 b1 W2 b2 r j) (∑ j' : Fin 16, shifted x norm W1 b1 W2 b2 r j'))

/-- The whole result array. -/
def result : Mat 10000 16 := fun i => logSoftmax x norm W1 b1 W2 b2 (i 0) (i 1)

theorem result_ix2 (r : Fin 10000) (j : Fin 16) :
    result x norm W1 b1 W2 b2 (ix2 r j) = logSoftmax x norm W1 b1 W2 b2 r j := rfl

end Cert.GcnSpec

end
-- ==== Proof.KernelIsGcn.lean ====
/-
  The idealized kernel's result array is the specification's.

  Every window's block is its rows of the array it stages: the whole array for `x`, `W1`, `W2` and the two bias rows; rows
  `400 b .. 400 b + 399` of the adjacency, where `b` is the point's number in the first sweep and runs backwards,
  `49 −` the point's number, in the second; the output's block in the second sweep is the same rows of the result. So the
  first scratch holds `x · W1`, row `k` of the second scratch holds row `k` of `hidden · W2` once its block has been
  written, and the block a point of the second sweep stores is its 400 rows of the log-softmax. The 25 blocks the
  second sweep writes back tile the result array.
-/
import proofs.«100797_g85014582657441_cont_9to1_m_926_23_alg».proof.Proof.KI.Body
import proofs.«100797_g85014582657441_cont_9to1_m_926_23_alg».proof.Proof.Layers
import proofs.«100797_g85014582657441_cont_9to1_m_926_23_alg».proof.Proof.GcnSpec
import Idealize.ShloMosaic.Lib.StableHlo.Run
import Idealize.ShloMosaic.Lib.ValueLayout

set_option maxRecDepth 16384

noncomputable section

open scoped BigOperators

namespace Cert.KernelIdeal.GcnValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Sweeps Cert.KernelIdeal.Layers

variable (m : (ℓ : Loc nD τ sig) → Buf (Elt Ideal) ℓ) (ρ : Dev nD → PrngReg)

/-! ## Which rows each window's block is -/

theorem wholeIndex0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem wholeIndex2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem wholeIndex3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem wholeIndex4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem wholeIndex5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
/-- The adjacency's row block: forwards in the first sweep, backwards in the second. -/
theorem adjIndex : ∀ t : Fin cfg0.N, win0_1.index t (0 : Fin 2) = (if t.val < 25 then t.val else 49 - t.val) ∧ win0_1.index t (1 : Fin 2) = 0 :=
  (by decide +kernel : ∀ t : Fin grid0.N, win0_1.index t (0 : Fin 2) = (if t.val < 25 then t.val else 49 - t.val) ∧ win0_1.index t (1 : Fin 2) = 0)
/-- The output's row block in the second sweep: backwards. -/
theorem outIndex : ∀ t : Fin cfg0.N, 25 ≤ t.val → win0_6.index t (0 : Fin 2) = 49 - t.val ∧ win0_6.index t (1 : Fin 2) = 0 :=
  (by decide +kernel : ∀ t : Fin grid0.N, 25 ≤ t.val → win0_6.index t (0 : Fin 2) = 49 - t.val ∧ win0_6.index t (1 : Fin 2) = 0)

/-- The row block of the adjacency (and, in the second sweep, of the output) at point `t`. -/
def rowBlock (t : Fin cfg0.N) : ℕ := if t.val < 25 then t.val else 49 - t.val

theorem rowBlock_lt (t : Fin cfg0.N) : rowBlock t < 25 := by
  have := lt_of_lt_of_eq t.isLt points50
  unfold rowBlock; split <;> omega

/-- Row `q` of block `b < 25` as a row of the whole array. -/
def rowOf (b : ℕ) (hb : b < 25) (q : Fin 400) : Fin 10000 := ⟨400 * b + q.val, by have := q.isLt; omega⟩

/-! ## The windows' blocks at an entry -/

theorem blk0 (c : Dev nD) (t : Fin cfg0.N) (p : Fin 10000) (q : Fin 128) :
    iblk m c 0 t (ix2 p q) = m ((c : Thread nD τ).loc main_arg0) (ix2 p q) := by
  show V m c main_arg0 (((cfg0.win 0).blk t).view.emb (ix2 p q)) = _
  rw [V_main_arg0]
  refine congrArg _ ?_
  funext d; apply Fin.ext
  obtain ⟨e0, e1⟩ := wholeIndex0 t
  match d with
  | ⟨0, _⟩ => show win0_0.index t (0 : Fin 2) * 10000 + 1 * p.val = p.val; omega
  | ⟨1, _⟩ => show win0_0.index t (1 : Fin 2) * 128 + 1 * q.val = q.val; omega

theorem blk2 (c : Dev nD) (t : Fin cfg0.N) (p : Fin 128) (q : Fin 64) :
    iblk m c 2 t (ix2 p q) = m ((c : Thread nD τ).loc main_arg2) (ix2 p q) := by
  show V m c main_arg2 (((cfg0.win 2).blk t).view.emb (ix2 p q)) = _
  rw [V_main_arg2]
  refine congrArg _ ?_
  funext d; apply Fin.ext
  obtain ⟨e0, e1⟩ := wholeIndex2 t
  match d with
  | ⟨0, _⟩ => show win0_2.index t (0 : Fin 2) * 128 + 1 * p.val = p.val; omega
  | ⟨1, _⟩ => show win0_2.index t (1 : Fin 2) * 64 + 1 * q.val = q.val; omega

theorem blk4 (c : Dev nD) (t : Fin cfg0.N) (p : Fin 64) (q : Fin 16) :
    iblk m c 4 t (ix2 p q) = m ((c : Thread nD τ).loc main_arg4) (ix2 p q) := by
  show V m c main_arg4 (((cfg0.win 4).blk t).view.emb (ix2 p q)) = _
  rw [V_main_arg4]
  refine congrArg _ ?_
  funext d; apply Fin.ext
  obtain ⟨e0, e1⟩ := wholeIndex4 t
  match d with
  | ⟨0, _⟩ => show win0_4.index t (0 : Fin 2) * 64 + 1 * p.val = p.val; omega
  | ⟨1, _⟩ => show win0_4.index t (1 : Fin 2) * 16 + 1 * q.val = q.val; omega

/-- The adjacency's block: its 400 rows of the adjacency. -/
theorem blk1 (c : Dev nD) (t : Fin cfg0.N) (p : Fin 400) (q : Fin 10000) :
    iblk m c 1 t (ix2 p q) = m ((c : Thread nD τ).loc main_arg1) (ix2 (rowOf (rowBlock t) (rowBlock_lt t) p) q) := by
  show V m c main_arg1 (((cfg0.win 1).blk t).view.emb (ix2 p q)) = _
  rw [V_main_arg1]
  refine congrArg _ ?_
  funext d; apply Fin.ext
  obtain ⟨e0, e1⟩ := adjIndex t
  match d with
  | ⟨0, _⟩ => show win0_1.index t (0 : Fin 2) * 400 + 1 * p.val = 400 * rowBlock t + p.val; unfold rowBlock; omega
  | ⟨1, _⟩ => show win0_1.index t (1 : Fin 2) * 10000 + 1 * q.val = q.val; omega

/-- The first bias row, which @main reshapes from the vector `b1` before the call. -/
theorem blk3 (c : Dev nD) (t : Fin cfg0.N) (h : Fin 64) :
    iblk m c 3 t (ix2 (0 : Fin 1) h) = m ((c : Thread nD τ).loc main_arg3) (ix1 h) := by
  show V m c main_v0 (((cfg0.win 3).blk t).view.emb (ix2 (0 : Fin 1) h)) = _
  have e : (V m c main_v0 : S1x64.Idx → EReal) = shapeCast S1x64 (m ((c : Thread nD τ).loc main_arg3)) shapeCasts_S64_S1x64 := by
    dsimp only [Gen.V, Gen.hostOps0]; after_results; rfl
  rw [e]
  have hidx : ((cfg0.win 3).blk t).view.emb (ix2 (0 : Fin 1) h) = ix2 (0 : Fin 1) h := by
    funext d; apply Fin.ext
    obtain ⟨e0, e1⟩ := wholeIndex3 t
    match d with
    | ⟨0, _⟩ => show win0_3.index t (0 : Fin 2) * 1 + 1 * 0 = 0; omega
    | ⟨1, _⟩ => show win0_3.index t (1 : Fin 2) * 64 + 1 * h.val = h.val; omega
  rw [hidx]
  exact shapeCast_a_1a_apply _ _ 0 h

/-- The second bias row, likewise from `b2`. -/
theorem blk5 (c : Dev nD) (t : Fin cfg0.N) (j : Fin 16) :
    iblk m c 5 t (ix2 (0 : Fin 1) j) = m ((c : Thread nD τ).loc main_arg5) (ix1 j) := by
  show V m c main_v1 (((cfg0.win 5).blk t).view.emb (ix2 (0 : Fin 1) j)) = _
  have e : (V m c main_v1 : S1x16.Idx → EReal) = shapeCast S1x16 (m ((c : Thread nD τ).loc main_arg5)) shapeCasts_S16_S1x16 := by
    dsimp only [Gen.V, Gen.hostOps0]; after_results; rfl
  rw [e]
  have hidx : ((cfg0.win 5).blk t).view.emb (ix2 (0 : Fin 1) j) = ix2 (0 : Fin 1) j := by
    funext d; apply Fin.ext
    obtain ⟨e0, e1⟩ := wholeIndex5 t
    match d with
    | ⟨0, _⟩ => show win0_5.index t (0 : Fin 2) * 1 + 1 * 0 = 0; omega
    | ⟨1, _⟩ => show win0_5.index t (1 : Fin 2) * 16 + 1 * j.val = j.val; omega
  rw [hidx]
  exact shapeCast_a_1a_apply _ _ 0 j

/-! ## What the scratch buffers and the output block hold -/

/-- The first scratch holds `x · W1`. -/
theorem denseFactor_apply (c : Dev nD) (k : Fin 10000) (h : Fin 64) :
    denseFactor m c (ix2 k h) = GcnSpec.dense (m ((c : Thread nD τ).loc main_arg0)) (m ((c : Thread nD τ).loc main_arg2)) k h := by
  unfold denseFactor
  rw [dense_apply]
  exact Finset.sum_congr rfl fun f _ => by rw [blk0, blk2]

/-- Point `t` of the first sweep computes rows `400 t ..` of `hidden · W2`. -/
theorem factorBlock_entry (c : Dev nD) (t : Fin cfg0.N) (q : Fin 400) (j : Fin 16) :
    factorBlock m c t (ix2 q j)
      = GcnSpec.proj (m ((c : Thread nD τ).loc main_arg0)) (m ((c : Thread nD τ).loc main_arg1)) (m ((c : Thread nD τ).loc main_arg2)) (m ((c : Thread nD τ).loc main_arg3)) (m ((c : Thread nD τ).loc main_arg4))
          (rowOf (rowBlock t) (rowBlock_lt t) q) j := by
  unfold factorBlock
  rw [factorBlock_apply]
  unfold GcnSpec.proj
  refine Finset.sum_congr rfl fun h _ => ?_
  rw [blk4]
  unfold hiddenAt GcnSpec.hidden
  rw [blk3]
  simp only [blk1, denseFactor_apply]

/-- After the first sweep, row `k` of the second scratch is row `k` of `hidden · W2`. -/
theorem factorFull_apply (c : Dev nD) (k : Fin 10000) (j : Fin 16) :
    factorFull m c (ix2 k j)
      = GcnSpec.proj (m ((c : Thread nD τ).loc main_arg0)) (m ((c : Thread nD τ).loc main_arg1)) (m ((c : Thread nD τ).loc main_arg2)) (m ((c : Thread nD τ).loc main_arg3)) (m ((c : Thread nD τ).loc main_arg4)) k j := by
  unfold factorFull
  have hk : k.val / 400 < 25 := by have := k.isLt; omega
  have hq : k.val % 400 < 400 := Nat.mod_lt _ (by decide)
  rw [factorAfter_row m c _ 25 _ le_rfl (k.val / 400) hk ⟨k.val % 400, hq⟩ j (ix2 k j) (Nat.div_add_mod _ _).symm rfl]
  rw [factorBlock_entry]
  have hrow : rowOf (rowBlock (⟨k.val / 400, by have := points50; omega⟩ : Fin cfg0.N)) (rowBlock_lt _) ⟨k.val % 400, hq⟩ = k := by
    apply Fin.ext
    show 400 * rowBlock (⟨k.val / 400, _⟩ : Fin cfg0.N) + k.val % 400 = k.val
    unfold rowBlock
    rw [if_pos (show k.val / 400 < 25 from hk)]
    exact Nat.div_add_mod _ _
  rw [hrow]

/-- A point of the second sweep stores its 400 rows of the log-softmax. -/
theorem outBlock_entry (c : Dev nD) (t : Fin cfg0.N) (q : Fin 400) (j : Fin 16) :
    outBlock m c t (ix2 q j)
      = GcnSpec.logSoftmax (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (rowOf (rowBlock t) (rowBlock_lt t) q) j := by
  unfold outBlock
  rw [outBlock_apply]
  have hlogit : ∀ j' : Fin 16, logitAt (iblk m c 1 t) (factorFull m c) (iblk m c 5 t) q j'
      = GcnSpec.logit (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (rowOf (rowBlock t) (rowBlock_lt t) q) j' := fun j' => by
    unfold logitAt GcnSpec.logit
    rw [blk5]
    simp only [blk1, factorFull_apply]
  have htop : topAt (iblk m c 1 t) (factorFull m c) (iblk m c 5 t) q
      = GcnSpec.rowMax (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (rowOf (rowBlock t) (rowBlock_lt t) q) := by
    unfold topAt GcnSpec.rowMax
    exact congrArg (fun g => (Finset.univ : Finset (Fin 16)).fold max (Ideal.ofBits .f32 0xFF800000#32) g) (funext hlogit)
  have hexp : ∀ j' : Fin 16, expAt (iblk m c 1 t) (factorFull m c) (iblk m c 5 t) q j'
      = GcnSpec.shifted (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (rowOf (rowBlock t) (rowBlock_lt t) q) j' := fun j' => by
    unfold expAt GcnSpec.shifted
    rw [hlogit, htop]
  unfold GcnSpec.logSoftmax
  rw [hexp, Finset.sum_congr rfl (fun j' _ => hexp j')]

/-! ## From blocks to the array -/

/-- What a point of the second sweep writes back is its block of the specification's array. -/
theorem flushed_eq (c : Dev nD) (t : Fin cfg0.N) (hf : (cfg0.win 6).flush t = true) :
    (dats m 0 c).flushed 6 t = ((cfg0.win 6).blk t).view.read (Elt Ideal) (GcnSpec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  have h25 : 25 ≤ t.val := by
    by_contra hlt
    have := noFlush6_firstSweep t (by omega)
    rw [this] at hf
    exact Bool.false_ne_true hf
  show (cfg0.win 6).cut (grid0.coords t) ((dats m 0 c).after 6 t) = _
  rw [after6]
  funext y
  obtain ⟨q, j, rfl⟩ : ∃ (q : Fin 400) (j : Fin 16), y = ix2 q j := ⟨y 0, y 1, eq_ix2 y⟩
  show outBlock m c t (ix2 q j) = GcnSpec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb (ix2 q j))
  have hemb : ((cfg0.win 6).blk t).view.emb (ix2 q j) = ix2 (rowOf (rowBlock t) (rowBlock_lt t) q) j := by
    funext d; apply Fin.ext
    obtain ⟨e0, e1⟩ := outIndex t h25
    have hrb : rowBlock t = 49 - t.val := by unfold rowBlock; exact if_neg (by omega)
    match d with
    | ⟨0, _⟩ => show win0_6.index t (0 : Fin 2) * 400 + 1 * q.val = 400 * rowBlock t + q.val; rw [hrb]; omega
    | ⟨1, _⟩ => show win0_6.index t (1 : Fin 2) * 16 + 1 * j.val = j.val; omega
  rw [hemb, GcnSpec.result_ix2, outBlock_entry]

/-- An index of the result array is in point `t`'s block iff each coordinate is in the block's range. -/
theorem mem_outBlock (t : Fin cfg0.N) (i : S10000x16.Idx) :
    i ∈ ((cfg0.win 6).blk t).view.set ↔ ∀ a : Fin 2, win0_6.index t a * S400x16.size a ≤ (i a).val ∧ (i a).val < win0_6.index t a * S400x16.size a + S400x16.size a := by
  show i ∈ ((View.whole main_v2).slice (win0_6.rect t)).set ↔ _
  rw [View.set_slice_whole, Rect.mem_set_unit]
  exact Iff.rfl

/-- The 25 blocks written back during the second sweep cover the result array: row `r` is in the block of point `49 − r / 400`. -/
theorem cover (i : S10000x16.Idx) : ∃ t : Fin cfg0.N, (cfg0.win 6).flush t = true ∧ i ∈ ((cfg0.win 6).blk t).view.set := by
  have hi0 : (i 0).val < 10000 := (i 0).isLt
  have hi1 : (i 1).val < 16 := (i 1).isLt
  have hN := points50
  refine ⟨⟨49 - (i 0).val / 400, by omega⟩, flush6_secondSweep _ (by show 25 ≤ 49 - (i 0).val / 400; omega), ?_⟩
  rw [mem_outBlock]
  obtain ⟨e0, e1⟩ := outIndex ⟨49 - (i 0).val / 400, by omega⟩ (by show 25 ≤ 49 - (i 0).val / 400; omega)
  intro a
  match a with
  | ⟨0, _⟩ =>
    show win0_6.index _ (0 : Fin 2) * 400 ≤ (i 0).val ∧ (i 0).val < win0_6.index _ (0 : Fin 2) * 400 + 400
    rw [e0]
    show (49 - (49 - (i 0).val / 400)) * 400 ≤ (i 0).val ∧ (i 0).val < (49 - (49 - (i 0).val / 400)) * 400 + 400
    omega
  | ⟨1, _⟩ =>
    show win0_6.index _ (1 : Fin 2) * 16 ≤ (i 1).val ∧ (i 1).val < win0_6.index _ (1 : Fin 2) * 16 + 16
    rw [e1]
    omega

/-- The result array after the run is the specification's. -/
theorem final (c : Dev nD) : (dats m 0 c).arrAt 6 cfg0.N = GcnSpec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 6 _ (fun t hf => flushed_eq m c t hf) (cover)

/-! ## The run, read -/

/-- Every weakly fair execution of the idealized kernel terminates with the result array at the specification's function
    of the argument arrays, which end as they were. -/
theorem run : θ_run defs (onTc (τ := τ) (main (F := Ideal))) ⟨m, fun _ => 0, ρ⟩ fun r => ∀ c : Dev nD,
      r.2.mem ((c : Thread nD τ).loc main_v2) = GcnSpec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 6).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end Cert.KernelIdeal.GcnValue

end
-- ==== Proof.RefIsGcn.lean ====
/-
  The reference's result, entry by entry, is the two-layer graph convolution followed by the row-wise log-softmax.

  Each host operation is read at an entry through the generated reading lemmas; a product is the plain sum over the
  contracted axis, a broadcast reads its operand at the kept coordinates, the row maximum is the fold of `max` over the
  row from −∞ (taking `max` with −∞ once more changes nothing), and the row sum starts from zero.
-/
import proofs.«100797_g85014582657441_cont_9to1_m_926_23_alg».proof.Proof.Gen.ReferenceIdeal.Run
import proofs.«100797_g85014582657441_cont_9to1_m_926_23_alg».proof.Proof.Gen.ReferenceIdeal.Read
import proofs.«100797_g85014582657441_cont_9to1_m_926_23_alg».proof.Proof.GcnSpec
import proofs.«100797_g85014582657441_cont_9to1_m_926_23_alg».proof.Proof.LibColumn
import Idealize.ShloMosaic.PureOps.Reduce
import Mathlib.Data.Finset.Fold

noncomputable section

open scoped BigOperators

namespace Cert.RefIsGcn

open Idealize.ShloMosaic Idealize.ShloMosaic.ValueIdx Cert.ReferenceIdeal Cert.ReferenceIdeal.Gen Cert.ReferenceIdeal.Read

/-- Two indices of an `a × b` array with the same coordinates are equal. -/
theorem idx2_ext {a b : ℕ} (f g : (⟨2, ![a, b]⟩ : Shape).Idx) (h0 : (f 0).val = (g 0).val) (h1 : (f 1).val = (g 1).val) : f = g := by
  funext d; apply Fin.ext
  match d with
  | ⟨0, _⟩ => exact h0
  | ⟨1, _⟩ => exact h1

theorem idx1_ext {a : ℕ} (f g : (⟨1, ![a]⟩ : Shape).Idx) (h0 : (f 0).val = (g 0).val) : f = g := by
  funext d; apply Fin.ext
  match d with
  | ⟨0, _⟩ => exact h0

/-- Taking `max` with the starting value of a `max`-fold once more changes nothing. -/
theorem max_fold_start (b : EReal) (f : Fin 16 → EReal) :
    max b ((Finset.univ : Finset (Fin 16)).fold max b f) = (Finset.univ : Finset (Fin 16)).fold max b f :=
  max_eq_right ((Finset.le_fold_max b).mpr (Or.inl le_rfl))

/-! ## The operand indices of each operation, by coordinates -/

theorem l0 (k : Fin 10000) (h : Fin 64) (f : Fin 128) : lidx_main_v0 (ix2 k h) f = ix2 k f := idx2_ext _ _ rfl rfl
theorem r0 (k : Fin 10000) (h : Fin 64) (f : Fin 128) : ridx_main_v0 (ix2 k h) f = ix2 f h := idx2_ext _ _ rfl rfl
theorem l1 (r : Fin 10000) (h : Fin 64) (k : Fin 10000) : lidx_main_v1 (ix2 r h) k = ix2 r k := idx2_ext _ _ rfl rfl
theorem r1 (r : Fin 10000) (h : Fin 64) (k : Fin 10000) : ridx_main_v1 (ix2 r h) k = ix2 k h := idx2_ext _ _ rfl rfl
theorem i23 (r : Fin 10000) (h : Fin 64) : idx_main_v2 (idx_main_v3 (ix2 r h)) = ix1 h := idx1_ext _ _ rfl
theorem l6 (r : Fin 10000) (j : Fin 16) (h : Fin 64) : lidx_main_v6 (ix2 r j) h = ix2 r h := idx2_ext _ _ rfl rfl
theorem r6 (r : Fin 10000) (j : Fin 16) (h : Fin 64) : ridx_main_v6 (ix2 r j) h = ix2 h j := idx2_ext _ _ rfl rfl
theorem l7 (r : Fin 10000) (j : Fin 16) (k : Fin 10000) : lidx_main_v7 (ix2 r j) k = ix2 r k := idx2_ext _ _ rfl rfl
theorem r7 (r : Fin 10000) (j : Fin 16) (k : Fin 10000) : ridx_main_v7 (ix2 r j) k = ix2 k j := idx2_ext _ _ rfl rfl
theorem i89 (r : Fin 10000) (j : Fin 16) : idx_main_v8 (idx_main_v9 (ix2 r j)) = ix1 j := idx1_ext _ _ rfl
theorem i1415 (r : Fin 10000) (j : Fin 16) : idx_main_v14 (idx_main_v15 (ix2 r j)) = ix1 r := idx1_ext _ _ rfl
theorem i18 (r : Fin 10000) (j : Fin 16) : idx_main_v18 (ix1 r) j = ix2 r j := idx2_ext _ _ rfl rfl
theorem i1920 (r : Fin 10000) (j : Fin 16) : idx_main_v19 (idx_main_v20 (ix2 r j)) = ix1 r := idx1_ext _ _ rfl

variable (x0 : (⟨S10000x128, .f32⟩ : BufTy).Contents (Elt Ideal)) (x1 : (⟨S10000x10000, .f32⟩ : BufTy).Contents (Elt Ideal))
  (x2 : (⟨S128x64, .f32⟩ : BufTy).Contents (Elt Ideal)) (x3 : (⟨S64, .f32⟩ : BufTy).Contents (Elt Ideal))
  (x4 : (⟨S64x16, .f32⟩ : BufTy).Contents (Elt Ideal)) (x5 : (⟨S16, .f32⟩ : BufTy).Contents (Elt Ideal))

/-! ## The stages -/

/-- `x · W1`. -/
theorem dense_eq (k : Fin 10000) (h : Fin 64) : val_main_v0 (F := Ideal) x0 x2 (ix2 k h) = GcnSpec.dense x0 x2 k h := by
  rw [val_main_v0_apply]
  exact Finset.sum_congr rfl fun f _ => by rw [l0, r0]

/-- The hidden layer. -/
theorem hidden_eq (r : Fin 10000) (h : Fin 64) : val_main_v5 (F := Ideal) x0 x1 x2 x3 (ix2 r h) = GcnSpec.hidden x0 x1 x2 x3 r h := by
  rw [val_main_v5_apply, val_main_v4_apply, val_main_v1_apply, val_main_v3_apply, val_main_v2_apply,
    val_main_call0_v0_apply, val_main_call0_cst_apply, i23]
  rw [Finset.sum_congr rfl (fun k _ => by rw [l1, r1, dense_eq] :
    ∀ k ∈ (Finset.univ : Finset (Fin 10000)), x1 (lidx_main_v1 (ix2 r h) k) * val_main_v0 (F := Ideal) x0 x2 (ridx_main_v1 (ix2 r h) k)
      = x1 (ix2 r k) * GcnSpec.dense x0 x2 k h)]
  rfl

/-- `hidden · W2`. -/
theorem proj_eq (r : Fin 10000) (j : Fin 16) : val_main_v6 (F := Ideal) x0 x1 x2 x3 x4 (ix2 r j) = GcnSpec.proj x0 x1 x2 x3 x4 r j := by
  rw [val_main_v6_apply]
  exact Finset.sum_congr rfl fun h _ => by rw [l6, r6, hidden_eq]

/-- The second layer's logits. -/
theorem logit_eq (r : Fin 10000) (j : Fin 16) : val_main_v10 (F := Ideal) x0 x1 x2 x3 x4 x5 (ix2 r j) = GcnSpec.logit x0 x1 x2 x3 x4 x5 r j := by
  rw [val_main_v10_apply, val_main_v7_apply, val_main_v9_apply, val_main_v8_apply, i89]
  rw [Finset.sum_congr rfl (fun k _ => by rw [l7, r7, proj_eq] :
    ∀ k ∈ (Finset.univ : Finset (Fin 10000)), x1 (lidx_main_v7 (ix2 r j) k) * val_main_v6 (F := Ideal) x0 x1 x2 x3 x4 (ridx_main_v7 (ix2 r j) k)
      = x1 (ix2 r k) * GcnSpec.proj x0 x1 x2 x3 x4 k j)]
  rfl

/-- The row maximum as the host's reduce computes it. -/
theorem reduceMax_eq (r : Fin 10000) : val_main_v11 (F := Ideal) x0 x1 x2 x3 x4 x5 (ix1 r) = GcnSpec.rowMax x0 x1 x2 x3 x4 x5 r := by
  unfold val_main_v11
  have hR : S10000x16.Reduces [1] S10000 := by decide
  haveI : Std.Commutative (FloatOps.maximumf (F := Ideal) (φ := .f32)) := ⟨fun a b => max_comm a b⟩
  haveI : Std.Associative (FloatOps.maximumf (F := Ideal) (φ := .f32)) := ⟨fun a b c => max_assoc a b c⟩
  rw [Host.reduce_eq_fold_single (FloatOps.maximumf (F := Ideal) (φ := .f32)) _ _ _ hR _ (ix1 r)]
  unfold GcnSpec.rowMax
  refine congrArg (fun g => (Finset.univ : Finset (Fin 16)).fold max (Ideal.ofBits .f32 0xFF800000#32) g) (funext fun k => ?_)
  show val_main_v10 (F := Ideal) x0 x1 x2 x3 x4 x5 (hR.lift (ix1 r) k) = _
  rw [Cert.LibColumn.lift_cols hR r k]
  exact logit_eq x0 x1 x2 x3 x4 x5 r k

/-- The row maximum after the extra `max` with −∞. -/
theorem rowMax_eq (r : Fin 10000) : val_main_v13 (F := Ideal) x0 x1 x2 x3 x4 x5 (ix1 r) = GcnSpec.rowMax x0 x1 x2 x3 x4 x5 r := by
  rw [val_main_v13_apply, val_main_v12_apply, val_main_cst_0_apply, reduceMax_eq]
  unfold GcnSpec.rowMax
  exact max_fold_start _ _

/-- `exp (logit − rowMax)`. -/
theorem shifted_eq (r : Fin 10000) (j : Fin 16) : val_main_v17 (F := Ideal) x0 x1 x2 x3 x4 x5 (ix2 r j) = GcnSpec.shifted x0 x1 x2 x3 x4 x5 r j := by
  rw [val_main_v17_apply, val_main_v16_apply, val_main_v15_apply, val_main_v14_apply, i1415, logit_eq, rowMax_eq]
  rfl

/-- The row's sum of exponentials. -/
theorem rowSum_eq (r : Fin 10000) : val_main_v18 (F := Ideal) x0 x1 x2 x3 x4 x5 (ix1 r) = ∑ j : Fin 16, GcnSpec.shifted x0 x1 x2 x3 x4 x5 r j := by
  rw [val_main_v18_apply, val_main_cst_1_apply]
  rw [Finset.sum_congr rfl (fun j _ => by rw [i18, shifted_eq] :
    ∀ j ∈ (Finset.univ : Finset (Fin 16)), val_main_v17 (F := Ideal) x0 x1 x2 x3 x4 x5 (idx_main_v18 (ix1 r) j) = GcnSpec.shifted x0 x1 x2 x3 x4 x5 r j)]
  show Ideal.ofBits .f32 0x00000000#32 + _ = _
  rw [Ideal.ofBits_zero_f32, zero_add]

/-- The reference's result array is the specification's. -/
theorem result_eq : val_main_v22 (F := Ideal) x0 x1 x2 x3 x4 x5 = GcnSpec.result x0 x1 x2 x3 x4 x5 := by
  funext i
  obtain ⟨r, j, rfl⟩ : ∃ (r : Fin 10000) (j : Fin 16), i = ix2 r j := ⟨i 0, i 1, eq_ix2 i⟩
  rw [val_main_v22_apply, val_main_v21_apply, val_main_v20_apply, val_main_v19_apply, i1920, shifted_eq, rowSum_eq,
    GcnSpec.result_ix2]
  rfl

end Cert.RefIsGcn

end
-- ==== Proof.lean ====
/-
  The certificate of the fused two-layer graph convolution with log-softmax against its jnp reference.

  Frames: each kernel program runs to completion leaving its arguments unchanged — the body's three cases (the first
  point; the rest of the first sweep; the second sweep) over an invariant that names what the two scratch buffers hold;
  the reference's frame is its run with the result dropped. The idealization rewrote nothing. At the extended reals both
  programs end with the same array: entry `(r, j)` is `log (e / Σ_j' e)` with `e = exp (z − max_j z)` and
  `z = norm · (max (norm · (x · W1) + b1) 0 · W2) + b2`; the kernel computes it 400 rows at a time from a scratch copy of
  `x · W1` and of `hidden · W2`, the reference in one piece, and both are the same plain sums.
-/
import proofs.«100797_g85014582657441_cont_9to1_m_926_23_alg».proof.Defs
import proofs.«100797_g85014582657441_cont_9to1_m_926_23_alg».proof.Proof.Gen.Kernel
import proofs.«100797_g85014582657441_cont_9to1_m_926_23_alg».proof.Proof.Gen.KernelIdeal
import proofs.«100797_g85014582657441_cont_9to1_m_926_23_alg».proof.Proof.Gen.ReferenceIdeal
import proofs.«100797_g85014582657441_cont_9to1_m_926_23_alg».proof.Proof.Gen.Pre_finite_inputs
import proofs.«100797_g85014582657441_cont_9to1_m_926_23_alg».proof.Proof.K.Body
import proofs.«100797_g85014582657441_cont_9to1_m_926_23_alg».proof.Proof.KernelIsGcn
import proofs.«100797_g85014582657441_cont_9to1_m_926_23_alg».proof.Proof.RefIsGcn

noncomputable section

namespace Cert.Proof

open Idealize.ShloMosaic Idealize.SL.Sem

theorem frame_kernel : Cert.frame_Kernel := fun m ρ _ => Cert.Kernel.Sweeps.frame m ρ

theorem frame_kernelIdeal : Cert.frame_KernelIdeal := fun m ρ _ => Cert.KernelIdeal.Sweeps.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the specification's array of those arguments. -/
theorem algebraic : Cert.algebraic_KernelIdeal_ReferenceIdeal := by
  intro m ρ m' ρ' _ hagree
  refine ⟨fun c => Cert.GcnSpec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.GcnValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.RefIsGcn.result_eq, (hagree c).1, (hagree c).2.1, (hagree c).2.2.1,
    (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
